-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x40 .f32) (main_arg11 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S2000 : Shape := ⟨1, ![2000]⟩
abbrev S2000x1 : Shape := ⟨2, ![2000, 1]⟩
abbrev S100000x40 : Shape := ⟨2, ![100000, 40]⟩
abbrev S2000x40 : Shape := ⟨2, ![2000, 40]⟩
abbrev S1700000x40 : Shape := ⟨2, ![1700000, 40]⟩
abbrev S1x40 : Shape := ⟨2, ![1, 40]⟩

abbrev nBuf : Space → Nat
  | .hbm => 113
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S1700000x1, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S100000x128, .f32⟩
  | .hbm, ⟨94, _⟩ => ⟨S100000x40, .f32⟩
  | .hbm, ⟨95, _⟩ => ⟨S1700000x1, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x40, .f32⟩
  | .hbm, ⟨105, _⟩ => ⟨S1700000x40, .f32⟩
  | .hbm, ⟨106, _⟩ => ⟨S1700000x40, .f32⟩
  | .hbm, ⟨107, _⟩ => ⟨S_, .f32⟩
  | .hbm, ⟨108, _⟩ => ⟨S100000x40, .f32⟩
  | .hbm, ⟨109, _⟩ => ⟨S1700000x1, .i32⟩
  | .hbm, ⟨110, _⟩ => ⟨S100000x40, .f32⟩
  | .hbm, ⟨111, _⟩ => ⟨S1x40, .f32⟩
  | .hbm, ⟨112, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x40, .f32⟩
  | .local _ .vmem, ⟨27, _⟩ => ⟨S2000x40, .f32⟩
  | .local _ .vmem, ⟨28, _⟩ => ⟨S2000x40, .f32⟩
  | .local _ .vmem, ⟨29, _⟩ => ⟨S2000x40, .f32⟩
  | .local _ .vmem, ⟨30, _⟩ => ⟨S2000x40, .f32⟩
  | .local _ .vmem, ⟨31, _⟩ => ⟨S1x40, .f32⟩
  | .local _ .vmem, ⟨32, _⟩ => ⟨S2000x40, .f32⟩
  | .local _ .vmem, ⟨33, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  broadcasts_S2000x1_S2000x40 : S2000x1.Broadcasts S2000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x40_S2000x40_1_0_0_1_n_n_wf : DotDims.WF S2000x128 S128x40 S2000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S100000x40.size a
  hwx4_2 : ∀ i : grid4.Coords, EltTy.bits .f32 = 32 ∨ (Rect.block (s := S100000x40) S2000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x40.size a ≤ S100000x40.size a
  hwx5_0 : ∀ i : grid5.Coords, EltTy.bits .f32 = 32 ∨ (Rect.block (s := S100000x40) S2000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x40.size a ≤ S100000x40.size a
  hwx5_2 : ∀ i : grid5.Coords, EltTy.bits .f32 = 32 ∨ (Rect.block (s := S100000x40) S2000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S2000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S2000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S2000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 191
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S1700000x1, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x128, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S_, .f32⟩
  | 90 => ⟨S100000x1, .f32⟩
  | 91 => ⟨S100000x1, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S1700000x1, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000, .f32⟩
  | 126 => ⟨S100000x1, .f32⟩
  | 127 => ⟨S_, .f32⟩
  | _ => ⟨S100000x128, .f32⟩

abbrev hbmTy0_1 (i : Nat) : BufTy := match i % 128 with
  | 0 => ⟨S100000x1, .f32⟩
  | 1 => ⟨S100000x1, .f32⟩
  | 2 => ⟨S100000x128, .f32⟩
  | 3 => ⟨S100000x128, .f32⟩
  | 4 => ⟨S100000x128, .f32⟩
  | 5 => ⟨S_, .f32⟩
  | 6 => ⟨S100000, .f32⟩
  | 7 => ⟨S100000x1, .f32⟩
  | 8 => ⟨S_, .f32⟩
  | 9 => ⟨S100000x1, .f32⟩
  | 10 => ⟨S100000x1, .f32⟩
  | 11 => ⟨S100000x128, .f32⟩
  | 12 => ⟨S100000x128, .f32⟩
  | 13 => ⟨S_, .f32⟩
  | 14 => ⟨S100000x1, .f32⟩
  | 15 => ⟨S100000x1, .f32⟩
  | 16 => ⟨S100000x1, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000x40, .f32⟩
  | 29 => ⟨S1700000x1, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x40, .f32⟩
  | 39 => ⟨S1700000x40, .f32⟩
  | 40 => ⟨S1700000x40, .f32⟩
  | 41 => ⟨S_, .f32⟩
  | 42 => ⟨S100000x40, .f32⟩
  | 43 => ⟨S1700000x1, .i32⟩
  | 44 => ⟨S100000x40, .f32⟩
  | 45 => ⟨S1x40, .f32⟩
  | 46 => ⟨S100000x40, .f32⟩
  | 47 => ⟨S100000x40, .f32⟩
  | 48 => ⟨S_, .f32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x40, .f32⟩
  | 55 => ⟨S100000x40, .f32⟩
  | 56 => ⟨S100000x40, .f32⟩
  | 57 => ⟨S_, .f32⟩
  | 58 => ⟨S100000, .f32⟩
  | 59 => ⟨S100000x1, .f32⟩
  | 60 => ⟨S100000x1, .f32⟩
  | 61 => ⟨S100000x40, .f32⟩
  | 62 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call1_cst : Ref sig .tc := ⟨.hbm, 101, rfl⟩
abbrev main_call1_v0 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_19 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_21 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call2_cst : Ref sig .tc := ⟨.hbm, 153, rfl⟩
abbrev main_call2_v0 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_c_22 : Ref sig .tc := ⟨.hbm, 158, rfl⟩
abbrev main_v116 : Ref sig .tc := ⟨.hbm, 159, rfl⟩
abbrev main_v117 : Ref sig .tc := ⟨.hbm, 160, rfl⟩
abbrev main_c_23 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_24 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_call3_cst : Ref sig .tc := ⟨.hbm, 176, rfl⟩
abbrev main_call3_v0 : Ref sig .tc := ⟨.hbm, 177, rfl⟩
abbrev main_call3_cst_0 : Ref sig .tc := ⟨.hbm, 178, rfl⟩
abbrev main_call3_v1 : Ref sig .tc := ⟨.hbm, 179, rfl⟩
abbrev main_call3_v2 : Ref sig .tc := ⟨.hbm, 180, rfl⟩
abbrev main_call3_v3 : Ref sig .tc := ⟨.hbm, 181, rfl⟩
abbrev main_call3_v4 : Ref sig .tc := ⟨.hbm, 182, rfl⟩
abbrev main_call3_v5 : Ref sig .tc := ⟨.hbm, 183, rfl⟩
abbrev main_call3_v6 : Ref sig .tc := ⟨.hbm, 184, rfl⟩
abbrev main_call3_cst_1 : Ref sig .tc := ⟨.hbm, 185, rfl⟩
abbrev main_call3_v7 : Ref sig .tc := ⟨.hbm, 186, rfl⟩
abbrev main_call3_v8 : Ref sig .tc := ⟨.hbm, 187, rfl⟩
abbrev main_call3_v9 : Ref sig .tc := ⟨.hbm, 188, rfl⟩
abbrev main_call3_v10 : Ref sig .tc := ⟨.hbm, 189, rfl⟩
abbrev main_v131 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result array NAMED: every weakly fair execution of @main terminates, nothing
  faulting, with the result array at the contents the last boundary of @main's segments holds for it, and the
  argument arrays as launched. The segments, their thread states and the boundary contents are the generated frame's;
  only the reading of the final state is widened by the result buffer.
-/
import proofs.«171338_j16415365005351_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result array read at the last boundary's contents. -/
theorem run_named : θ_run defs (onTc (τ := τ) (main (F := F))) ⟨m, fun _ => 0, ρ⟩ (fun r => ∀ c : Dev nD,
      r.2.mem ((c.tc : Thread nD τ).loc main_v81) = W12 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v81 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Val

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.Spec.lean ====
/-
  The pointwise-in-rows layers of a graph convolution network, as functions of whole arrays over the extended
  reals, entry by entry.

  * `lnRelu a B G BE`: to every row of `a` the bias row `B` is added; the row is centred by its mean (its sum
    divided by the word `128.0`), scaled by the reciprocal square root of (its mean square deviation plus the word
    `1e-5`), multiplied by the gain row `G`, shifted by the row `BE`, and clamped below at zero.
  * `logSoftmax a B`: to every row of `a` the bias row `B` is added; from every entry the row's maximum (the
    fold of `max` from the word `-inf`) is subtracted, and then the logarithm of the row's sum of exponentials
    of those differences.
  * the product of two matrices is `Cert.MatProd.prod`.
  The float words are kept as words: both programs carry the same ones.
-/
import proofs.«171338_j16415365005351_1_alg».proof.Proof.LibMatProd

noncomputable section

open scoped BigOperators

namespace Cert.Gcn

open Idealize.ShloMosaic Idealize.ShloMosaic.ValueIdx

/-- A matrix of extended reals with `M` rows and `N` columns. -/
abbrev Mat (M N : Nat) : Type := (⟨2, ![M, N]⟩ : Shape).Idx → EReal
/-- A vector of extended reals with `N` entries. -/
abbrev Vect (N : Nat) : Type := (⟨1, ![N]⟩ : Shape).Idx → EReal

/-- The float words both programs carry: `0.0`, `128.0`, `1e-5` (rounded to f32) and `-inf`. -/
def zeroW : EReal := Ideal.ofBits .f32 0x00000000#32
def c128W : EReal := Ideal.ofBits .f32 0x43000000#32
def epsW : EReal := Ideal.ofBits .f32 0x3727C5AC#32
def negInfW : EReal := Ideal.ofBits .f32 0xFF800000#32

/-- A vector laid out as a one-row matrix. -/
def rowOf {n : Nat} (b : Vect n) : Mat 1 n := fun i => b (ix1 (i 1))

theorem rowOf_apply {n : Nat} (b : Vect n) (u : Fin 1) (k : Fin n) : rowOf b (ix2 u k) = b (ix1 k) := rfl

/-- The mean of a row: its sum divided by the word `128.0`. -/
def rowMean {n : Nat} (val : Fin n → EReal) : EReal := Ideal.div (∑ k : Fin n, val k) c128W

/-- Entry `j` of a normalised, scaled, shifted and clamped row. -/
def lnRow {n : Nat} (val g be : Fin n → EReal) (j : Fin n) : EReal :=
  max ((val j - rowMean val) * Ideal.rsqrt (rowMean (fun k => (val k - rowMean val) * (val k - rowMean val)) + epsW) * g j + be j) zeroW

/-- LayerNorm then ReLU of every row of `a + B`. -/
def lnRelu {M n : Nat} (a : Mat M n) (B G BE : Mat 1 n) : Mat M n := fun i =>
  lnRow (fun k => a (ix2 (i 0) k) + B (ix2 0 k)) (fun k => G (ix2 0 k)) (fun k => BE (ix2 0 k)) (i 1)

theorem lnRelu_apply {M n : Nat} (a : Mat M n) (B G BE : Mat 1 n) (p : Fin M) (q : Fin n) :
    lnRelu a B G BE (ix2 p q)
      = lnRow (fun k => a (ix2 p k) + B (ix2 0 k)) (fun k => G (ix2 0 k)) (fun k => BE (ix2 0 k)) q := rfl

/-- The maximum of a row: the fold of `max` from the word `-inf`. -/
def rowMax {n : Nat} (val : Fin n → EReal) : EReal := (Finset.univ : Finset (Fin n)).fold max negInfW val

/-- Entry `j` of the logarithm of the softmax of a row. -/
def lsRow {n : Nat} (val : Fin n → EReal) (j : Fin n) : EReal :=
  (val j - rowMax val) - Ideal.log (∑ k : Fin n, Ideal.exp (val k - rowMax val))

/-- The log-softmax of every row of `a + B`. -/
def logSoftmax {M n : Nat} (a : Mat M n) (B : Mat 1 n) : Mat M n := fun i =>
  lsRow (fun k => a (ix2 (i 0) k) + B (ix2 0 k)) (i 1)

theorem logSoftmax_apply {M n : Nat} (a : Mat M n) (B : Mat 1 n) (p : Fin M) (q : Fin n) :
    logSoftmax a B (ix2 p q) = lsRow (fun k => a (ix2 p k) + B (ix2 0 k)) q := rfl

/-- Entry `(p, q)` of a row-wise layer of a BLOCK of rows is entry `(r, q)` of the layer of the whole array, when row
    `p` of the block is row `r` of the array. -/
theorem lnRelu_block_eq {M M' n : Nat} (a : Mat M n) (a' : Mat M' n) (B G BE : Mat 1 n) (p : Fin M') (r : Fin M) (q : Fin n)
    (h0 : ∀ k : Fin n, a' (ix2 p k) = a (ix2 r k)) :
    lnRelu a' B G BE (ix2 p q) = lnRelu a B G BE (ix2 r q) := by
  rw [lnRelu_apply, lnRelu_apply]
  simp only [h0]

theorem logSoftmax_block_eq {M M' n : Nat} (a : Mat M n) (a' : Mat M' n) (B : Mat 1 n) (p : Fin M') (r : Fin M) (q : Fin n)
    (h0 : ∀ k : Fin n, a' (ix2 p k) = a (ix2 r k)) :
    logSoftmax a' B (ix2 p q) = logSoftmax a B (ix2 r q) := by
  rw [logSoftmax_apply, logSoftmax_apply]
  simp only [h0]

end Cert.Gcn

end
-- ==== Proof.HostChain.lean ====
/-
  The irregular part of a graph convolution, as both programs spell it with host operations, and the whole network
  as ONE function of the twelve argument arrays.

  From the edge list: the sources and the targets with one self-loop per node appended (`srcOf`, `dstOf`); a node's
  degree, the number of edges aimed at it, by a scatter-add of ones (`degOf`); its inverse square root where the
  degree is positive and zero elsewhere (`dinvOf`); an edge's weight, the product of that number at its two ends
  (`normOf`). One aggregation (`agg128`, `agg40`): every edge's source row, gathered (a negative index first
  wrapped by the node count) and scaled by the edge's weight, is added into the edge's target row.
  `out`: three layers product → aggregation → (LayerNorm, ReLU), the last one ending in a log-softmax instead.
  The host operations are never opened here: both programs apply the same ones to the same operands.
-/
import proofs.«171338_j16415365005351_1_alg».proof.Proof.Gen.KernelIdeal
import proofs.«171338_j16415365005351_1_alg».proof.Proof.Spec

noncomputable section

namespace Cert.Gcn

open Idealize.ShloMosaic Cert.KernelIdeal Cert.KernelIdeal.Facts₀

/-- An array of 32-bit integers, and one of floats read as extended reals. -/
abbrev IArr (S : Shape) : Type := IVec S 32
abbrev FArr (S : Shape) : Type := FVec Ideal S .f32

/-- Row `r` of the edge list followed by the node numbers `0, …, N - 1` (the self-loops). -/
def srcOf (ei : IArr S2x1600000) : IArr S1700000 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0
def dstOf (ei : IArr S2x1600000) : IArr S1700000 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative index is taken from the end: the node count is added to it. -/
def wrapIdx (s : IArr S1700000) : IArr S1700000 :=
  select (cmpi .slt s (broadcastInDim S1700000 ![] bcast_S_S1700000 (constantI S_ 32 0#32))) (addi s (broadcastInDim S1700000 ![] bcast_S_S1700000 (constantI S_ 32 100000#32))) s

/-- A node's degree: ones added at the edges' targets. -/
def degOf (dst : IArr S1700000) : FArr S100000 :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 dst) (broadcastInDim S1700000 ![] bcast_S_S1700000 (constant (F := Ideal) S_ .f32 0x3F800000#32))

/-- Its inverse square root where positive, zero elsewhere. -/
def dinvOf (dst : IArr S1700000) : FArr S100000 :=
  select (cmpf .ogt (degOf dst) (broadcastInDim S100000 ![] bcast_S_S100000 (constant (F := Ideal) S_ .f32 0x00000000#32))) (Host.rsqrt (F := Ideal) (degOf dst)) (broadcastInDim S100000 ![] bcast_S_S100000 (id (constant (F := Ideal) S_ .f32 0x00000000#32)))

/-- An edge's weight. -/
def normOf (src dst : IArr S1700000) : FArr S1700000 :=
  mulf (Host.gather gather_S100000_S1700000x1_S1700000_n_0_n_n_0_1_1 (dinvOf dst) (broadcastInDim S1700000x1 ![0] bcast_S1700000_S1700000x1_0 (wrapIdx src))) (Host.gather gather_S100000_S1700000x1_S1700000_n_0_n_n_0_1_1 (dinvOf dst) (broadcastInDim S1700000x1 ![0] bcast_S1700000_S1700000x1_0 (wrapIdx dst)))

/-- One aggregation of 128-wide rows. -/
def agg128 (src dst : IArr S1700000) (nrm : FArr S1700000) (h : FArr S100000x128) : FArr S100000x128 :=
  Host.scatterAdd (F := Ideal) scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 dst) (mulf (broadcastInDim S1700000x128 ![0, 1] bcast_S1700000x1_S1700000x128_0_1 (broadcastInDim S1700000x1 ![0] bcast_S1700000_S1700000x1_0 nrm)) (Host.gather gather_S100000x128_S1700000x1_S1700000x128_1_0_n_n_0_1_1128 h (broadcastInDim S1700000x1 ![0] bcast_S1700000_S1700000x1_0 (wrapIdx src))))

/-- One aggregation of 40-wide rows. -/
def agg40 (src dst : IArr S1700000) (nrm : FArr S1700000) (h : FArr S100000x40) : FArr S100000x40 :=
  Host.scatterAdd (F := Ideal) scatter_S100000x40_S1700000x1_S1700000x40_1_0_0_1 (broadcastInDim S100000x40 ![] bcast_S_S100000x40 (constant (F := Ideal) S_ .f32 0x00000000#32)) (broadcastInDim S1700000x1 ![0] bcast_S1700000_S1700000x1_0 dst) (mulf (broadcastInDim S1700000x40 ![0, 1] bcast_S1700000x1_S1700000x40_0_1 (broadcastInDim S1700000x1 ![0] bcast_S1700000_S1700000x1_0 nrm)) (Host.gather gather_S100000x40_S1700000x1_S1700000x40_1_0_n_n_0_1_140 h (broadcastInDim S1700000x1 ![0] bcast_S1700000_S1700000x1_0 (wrapIdx src))))

/-- The network: what both programs leave in their result array, as a function of the twelve argument arrays. -/
def out (x0 : FArr S100000x128) (x1 : IArr S2x1600000) (x2 : FArr S128x128) (x3 x4 x5 : FArr S128) (x6 : FArr S128x128)
    (x7 x8 x9 : FArr S128) (x10 : FArr S128x40) (x11 : FArr S40) : FArr S100000x40 :=
  logSoftmax
    (agg40 (srcOf x1) (dstOf x1) (normOf (srcOf x1) (dstOf x1))
      (Cert.MatProd.prod
        (lnRelu
          (agg128 (srcOf x1) (dstOf x1) (normOf (srcOf x1) (dstOf x1))
            (Cert.MatProd.prod
              (lnRelu (agg128 (srcOf x1) (dstOf x1) (normOf (srcOf x1) (dstOf x1)) (Cert.MatProd.prod x0 x2))
                (rowOf x3) (rowOf x4) (rowOf x5))
              x6))
          (rowOf x7) (rowOf x8) (rowOf x9))
        x10))
    (rowOf x11)

end Cert.Gcn

end
-- ==== Proof.LibAfter.lean ====
/-
  The contents after two lines of host operations run one after the other: the second line's fold over the first's.

  General in the topology, the signature and the element values; imports Lib/StableHlo/Run only.
-/
import Idealize.ShloMosaic.Lib.StableHlo.Run

namespace Cert.After

open Idealize.ShloMosaic

/-- Folding a concatenation is folding the second list over the first list's fold. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.After
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.KernelHost.lean ====
/-
  The host operations of the idealized kernel's @main between its six regions, read for ANY contents `V` a stretch
  is entered with: the stretch before the first region computes the edge sources, targets and weights from the edge
  list; each stretch before a normalising region gathers, scales and scatter-adds the rows of the product just
  computed and lays the three parameter vectors out as rows; the last does the same for the 40-wide product. Every
  stretch leaves the buffers it does not write as they were.
-/
import proofs.«171338_j16415365005351_1_alg».proof.Proof.Gen.KernelIdeal.Frame
import proofs.«171338_j16415365005351_1_alg».proof.Proof.HostChain
import proofs.«171338_j16415365005351_1_alg».proof.Proof.LibAfter
import proofs.«171338_j16415365005351_1_alg».proof.Proof.LibTypedRef
import Idealize.ShloMosaic.Lib.StableHlo.Run
import Idealize.ShloMosaic.Lib.ValueLayout

set_option maxRecDepth 16384

noncomputable section

namespace Cert.KernelIdeal.Val

open Cert.KernelIdeal Cert.KernelIdeal.Gen Cert.KernelIdeal.Facts₀ Cert.Gcn
open Idealize.ShloMosaic Idealize.ShloMosaic.TcCoe Idealize.SL.Sem Idealize.ShloMosaic.StableHlo Idealize.ShloMosaic.ValueIdx

variable (V : Valuation τ sig (Elt Ideal))

/-- The operations before the first region, cut after the edge targets: the first seven build the edge sources and
    targets, the rest the edge weights from them. -/
abbrev preA : List (HloOp τ sig (Elt Ideal)) := hostOps0.take 7
abbrev preB : List (HloOp τ sig (Elt Ideal)) := hostOps0.drop 7 ++ hostOps0_1 ++ hostOps0_2

theorem pre_after : after hostOps0_2 (after hostOps0_1 (after hostOps0 V)) = after preB (after preA V) := by
  unfold preA preB
  rw [Cert.After.after_append, Cert.After.after_append, ← Cert.After.after_append (hostOps0.take 7) (hostOps0.drop 7),
    List.take_append_drop]

set_option maxHeartbeats 4000000 in
/-- The edge sources: the first row of the edge list, then one self-loop per node. -/
theorem preA_src : after preA V (Proc.devRef .tc main_v3) = srcOf (V (Proc.devRef .tc main_arg1)) := by
  simp only [preA, hostOps0, List.take_succ_cons, List.take_zero]
  after_results_simp
  rfl

set_option maxHeartbeats 4000000 in
/-- The edge targets: the second row of the edge list, then one self-loop per node. -/
theorem preA_dst : after preA V (Proc.devRef .tc main_v6) = dstOf (V (Proc.devRef .tc main_arg1)) := by
  simp only [preA, hostOps0, List.take_succ_cons, List.take_zero]
  after_results_simp
  rfl

set_option maxHeartbeats 4000000 in
/-- No argument array is written by them. -/
theorem preA_keep (r : Ref sig .tc) (hr : r ∈ [main_arg0, main_arg1, main_arg2, main_arg3, main_arg4, main_arg5, main_arg6, main_arg7, main_arg8, main_arg9, main_arg10, main_arg11]) :
    after preA V (Proc.devRef .tc r) = V (Proc.devRef .tc r) := by
  simp only [List.mem_cons, List.mem_nil_iff, or_false] at hr
  rcases hr with rfl | rfl | rfl | rfl | rfl | rfl | rfl | rfl | rfl | rfl | rfl | rfl <;>
  · simp only [preA, hostOps0, List.take_succ_cons, List.take_zero]
    after_results_simp

/-- Contents carried to the type of a literal buffer of the inlined selection, or back, are unchanged: the buffer's
    declared type is the value's. -/
theorem toBuf_v14 (p : main_v14.ty = ⟨S100000, .f32⟩) (q : main_v14.space ≠ .host) (r : main_v14.isScoped = false)
    (v : (⟨S100000, .f32⟩ : BufTy).Contents (Elt Ideal)) :
    (TRef.of (T := ⟨S100000, .f32⟩) main_v14 p q r).toBuf (Val := Elt Ideal) v = v := rfl
theorem ofBuf_v12 (p : main_v12.ty = ⟨S100000, .i1⟩) (q : main_v12.space ≠ .host) (r : main_v12.isScoped = false)
    (v : (⟨S100000, .i1⟩ : BufTy).Contents (Elt Ideal)) :
    (TRef.of (T := ⟨S100000, .i1⟩) main_v12 p q r).ofBuf (Val := Elt Ideal) v = v := rfl
theorem ofBuf_v13 (p : main_v13.ty = ⟨S100000, .f32⟩) (q : main_v13.space ≠ .host) (r : main_v13.isScoped = false)
    (v : (⟨S100000, .f32⟩ : BufTy).Contents (Elt Ideal)) :
    (TRef.of (T := ⟨S100000, .f32⟩) main_v13 p q r).ofBuf (Val := Elt Ideal) v = v := rfl
theorem ofBuf_cst_2 (p : main_cst_2.ty = ⟨S_, .f32⟩) (q : main_cst_2.space ≠ .host) (r : main_cst_2.isScoped = false)
    (v : (⟨S_, .f32⟩ : BufTy).Contents (Elt Ideal)) :
    (TRef.of (T := ⟨S_, .f32⟩) main_cst_2 p q r).ofBuf (Val := Elt Ideal) v = v := rfl

set_option maxHeartbeats 4000000 in
/-- The edge weights, from the sources and targets. -/
theorem preB_norm : after preB V (Proc.devRef .tc main_v29) = normOf (V (Proc.devRef .tc main_v3)) (V (Proc.devRef .tc main_v6)) := by
  simp only [preB, hostOps0, hostOps0_1, hostOps0_2, List.drop_succ_cons, List.drop_zero, List.cons_append, List.nil_append]
  after_results_simp
  simp only [Cert.TypedRef.ofBuf_toBuf, toBuf_v14, ofBuf_v12, ofBuf_v13, ofBuf_cst_2]
  rfl

set_option maxHeartbeats 4000000 in
/-- The sources, the targets and the arguments are not written by the rest. -/
theorem preB_keep (r : Ref sig .tc) (hr : r ∈ [main_v3, main_v6, main_arg0, main_arg1, main_arg2, main_arg3, main_arg4, main_arg5, main_arg6, main_arg7, main_arg8, main_arg9, main_arg10, main_arg11]) :
    after preB V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl <;>
  · simp only [preB, hostOps0, hostOps0_1, hostOps0_2, List.drop_succ_cons, List.drop_zero, List.cons_append, List.nil_append]
    after_results_simp

set_option maxHeartbeats 4000000 in
/-- The aggregation of the rows of the product just computed. -/
theorem h1_agg : after hostOps1 V (Proc.devRef .tc main_v43)
    = agg128 (V (Proc.devRef .tc main_v3)) (V (Proc.devRef .tc main_v6)) (V (Proc.devRef .tc main_v29)) (V (Proc.devRef .tc main_v30)) := by
  simp only [hostOps1]
  after_results_simp
  rfl

set_option maxHeartbeats 4000000 in
/-- A parameter vector laid out as a one-row matrix. -/
theorem h1_main_v44 : after hostOps1 V (Proc.devRef .tc main_v44) = shapeCast S1x128 (V (Proc.devRef .tc main_arg3)) Facts₀.shapeCasts_S128_S1x128 := by
  simp only [hostOps1]
  after_results_simp
  rfl

set_option maxHeartbeats 4000000 in
/-- A parameter vector laid out as a one-row matrix. -/
theorem h1_main_v45 : after hostOps1 V (Proc.devRef .tc main_v45) = shapeCast S1x128 (V (Proc.devRef .tc main_arg4)) Facts₀.shapeCasts_S128_S1x128 := by
  simp only [hostOps1]
  after_results_simp
  rfl

set_option maxHeartbeats 4000000 in
/-- A parameter vector laid out as a one-row matrix. -/
theorem h1_main_v46 : after hostOps1 V (Proc.devRef .tc main_v46) = shapeCast S1x128 (V (Proc.devRef .tc main_arg5)) Facts₀.shapeCasts_S128_S1x128 := by
  simp only [hostOps1]
  after_results_simp
  rfl

set_option maxHeartbeats 4000000 in
/-- The stretch leaves the edge data and the later arguments as they were. -/
theorem h1_keep (r : Ref sig .tc) (hr : r ∈ [main_v3, main_v6, main_v29, main_arg6, main_arg7, main_arg8, main_arg9, main_arg10, main_arg11]) :
    after hostOps1 V (Proc.devRef .tc r) = V (Proc.devRef .tc r) := by
  simp only [List.mem_cons, List.mem_nil_iff, or_false] at hr
  rcases hr with rfl | rfl | rfl | rfl | rfl | rfl | rfl | rfl | rfl <;>
  · simp only [hostOps1]
    after_results_simp

set_option maxHeartbeats 4000000 in
/-- The aggregation of the rows of the product just computed. -/
theorem h3_agg : after hostOps3 V (Proc.devRef .tc main_v61)
    = agg128 (V (Proc.devRef .tc main_v3)) (V (Proc.devRef .tc main_v6)) (V (Proc.devRef .tc main_v29)) (V (Proc.devRef .tc main_v48)) := by
  simp only [hostOps3]
  after_results_simp
  rfl

set_option maxHeartbeats 4000000 in
/-- A parameter vector laid out as a one-row matrix. -/
theorem h3_main_v62 : after hostOps3 V (Proc.devRef .tc main_v62) = shapeCast S1x128 (V (Proc.devRef .tc main_arg7)) Facts₀.shapeCasts_S128_S1x128 := by
  simp only [hostOps3]
  after_results_simp
  rfl

set_option maxHeartbeats 4000000 in
/-- A parameter vector laid out as a one-row matrix. -/
theorem h3_main_v63 : after hostOps3 V (Proc.devRef .tc main_v63) = shapeCast S1x128 (V (Proc.devRef .tc main_arg8)) Facts₀.shapeCasts_S128_S1x128 := by
  simp only [hostOps3]
  after_results_simp
  rfl

set_option maxHeartbeats 4000000 in
/-- A parameter vector laid out as a one-row matrix. -/
theorem h3_main_v64 : after hostOps3 V (Proc.devRef .tc main_v64) = shapeCast S1x128 (V (Proc.devRef .tc main_arg9)) Facts₀.shapeCasts_S128_S1x128 := by
  simp only [hostOps3]
  after_results_simp
  rfl

set_option maxHeartbeats 4000000 in
/-- The stretch leaves the edge data and the later arguments as they were. -/
theorem h3_keep (r : Ref sig .tc) (hr : r ∈ [main_v3, main_v6, main_v29, main_arg10, main_arg11]) :
    after hostOps3 V (Proc.devRef .tc r) = V (Proc.devRef .tc r) := by
  simp only [List.mem_cons, List.mem_nil_iff, or_false] at hr
  rcases hr with rfl | rfl | rfl | rfl | rfl <;>
  · simp only [hostOps3]
    after_results_simp

set_option maxHeartbeats 4000000 in
/-- The aggregation of the rows of the product just computed. -/
theorem h5_agg : after hostOps5 V (Proc.devRef .tc main_v79)
    = agg40 (V (Proc.devRef .tc main_v3)) (V (Proc.devRef .tc main_v6)) (V (Proc.devRef .tc main_v29)) (V (Proc.devRef .tc main_v66)) := by
  simp only [hostOps5]
  after_results_simp
  rfl

set_option maxHeartbeats 4000000 in
/-- A parameter vector laid out as a one-row matrix. -/
theorem h5_main_v80 : after hostOps5 V (Proc.devRef .tc main_v80) = shapeCast S1x40 (V (Proc.devRef .tc main_arg11)) Facts₀.shapeCasts_S40_S1x40 := by
  simp only [hostOps5]
  after_results_simp
  rfl

set_option maxHeartbeats 4000000 in
/-- The stretch leaves the edge data and the later arguments as they were. -/
theorem h5_keep (r : Ref sig .tc) (hr : r ∈ [main_v3]) :
    after hostOps5 V (Proc.devRef .tc r) = V (Proc.devRef .tc r) := by
  simp only [List.mem_cons, List.mem_nil_iff, or_false] at hr
  rcases hr with rfl <;>
  · simp only [hostOps5]
    after_results_simp

/-- A vector cast to a one-row matrix is the vector laid out as a row. -/
theorem shapeCast_row {n : Nat} (b : FVec Ideal ⟨1, ![n]⟩ .f32) (h : (⟨1, ![n]⟩ : Shape).ShapeCasts ⟨2, ![1, n]⟩) :
    shapeCast ⟨2, ![1, n]⟩ b h = rowOf b := by
  funext i
  obtain ⟨u, k, rfl⟩ : ∃ (u : Fin 1) (k : Fin n), i = ix2 u k := ⟨i 0, i 1, eq_ix2 i⟩
  rw [rowOf_apply]
  refine shapeCast_apply b h _ _ ?_
  have hu : u.val = 0 := by omega
  rw [Shape.rowMajor_val_two, Shape.rowMajor_val_one]
  show k.val = u.val * n + k.val
  rw [hu, Nat.zero_mul, Nat.zero_add]

end Cert.KernelIdeal.Val

end
-- ==== Proof.RegionMM.lean ====
/-
  The three product regions of the idealized kernel, read as values for ANY contents `V` the region is entered
  with: each tiles the rows of the left operand in blocks of 2000, multiplies a block by the whole right operand
  (the two casts to bf16 are the identity over the extended reals, the accumulator starts at zero), and writes the
  block of rows back. Block `t` of the product is the product of block `t` of the rows, the fifty blocks cover
  the 100000 rows, so the result array ends at the product of the two arrays.
-/
import proofs.«171338_j16415365005351_1_alg».proof.Proof.Gen.KernelIdeal.Frame
import proofs.«171338_j16415365005351_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Facts₀
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-block access, however they are spelt. -/
theorem hzMM : (![0, 0] : Fin 2 → Nat) = fun _ => 0 := funext fun a => by fin_cases a <;> rfl

/-- Entry `j` of a product of blocks is entry `i` of the product of the whole arrays, when row `j 0` of the left block
    is row `i 0` of the left array and column `j 1` of the right block is column `i 1` of the right array. -/
theorem prod_rows_eq {M M' K N : Nat} (A : Cert.Gcn.Mat M K) (B : Cert.Gcn.Mat K N) (A' : Cert.Gcn.Mat M' K) (B' : Cert.Gcn.Mat K N)
    (j : (⟨2, ![M', N]⟩ : Shape).Idx) (i : (⟨2, ![M, N]⟩ : Shape).Idx)
    (hA : ∀ k : Fin K, A' (ix2 ⟨(j 0).val, (j 0).isLt⟩ k) = A (ix2 ⟨(i 0).val, (i 0).isLt⟩ k))
    (hB : ∀ k : Fin K, B' (ix2 k ⟨(j 1).val, (j 1).isLt⟩) = B (ix2 k ⟨(i 1).val, (i 1).isLt⟩)) :
    Cert.MatProd.prod A' B' j = Cert.MatProd.prod A B i :=
  Finset.sum_congr rfl fun k _ => by
    show A' (ix2 ⟨(j 0).val, (j 0).isLt⟩ k) * B' (ix2 k ⟨(j 1).val, (j 1).isLt⟩) = A (ix2 ⟨(i 0).val, (i 0).isLt⟩ k) * B (ix2 k ⟨(i 1).val, (i 1).isLt⟩)
    rw [hA k, hB k]

/-! ## Region 0: a row-tiled product -/

/-- The body's one stored value is the product of its two loaded blocks (a change of float format is the identity
    over the extended reals, and the accumulator starts at zero). -/
theorem pay0_eq (x0 : Vec Ideal S2000x128 .f32) (x1 : Vec Ideal S128x128 .f32) :
    k0_pay1 (F := Ideal) x0 x1 = Cert.MatProd.prod x0 x1 :=
  Cert.MatProd.matmul_plain_zero_eq (φ₁ := .bf16) (φ₂ := .bf16) none _ _

/-- The printed index maps over the grid: the left operand's and the result's blocks are block row `t`, the right
    operand's is the whole matrix. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of the product of the two arrays as the region finds them. -/
theorem flushed0_eq (c : Dev nD) (t : Fin cfg0.N) :
    (dat0 (F := Ideal) V c).flushed 2 t
      = ((cfg0.win 2).blk t).view.read (Elt Ideal) (Cert.MatProd.prod (V c main_arg0) (V c main_arg2)) := by
  show (cfg0.win 2).cut (grid0.coords t) ((dat0 V c).after 2 t) = _
  rw [after0_2]
  unfold out0_2
  rw [View.canon_unit_zero hzMM]
  simp only [View.ld_unit_zero (S := S2000x128) hzMM, View.ld_unit_zero (S := S128x128) hzMM]
  rw [pay0_eq]
  obtain ⟨e0, e1, e2, e3, e4, e5⟩ := idx0 t
  funext j
  refine prod_rows_eq (M := 100000) (M' := 2000) (K := 128) (N := 128) (V c main_arg0) (V c main_arg2) (iblk0 V c 0 t) (iblk0 V c 1 t) j
    (((cfg0.win 2).blk t).view.emb j) (fun k => ?_) (fun k => ?_)
  · show V c main_arg0 (((cfg0.win 0).blk t).view.emb (ix2 ⟨(j 0).val, (j 0).isLt⟩ k)) = _
    refine congrArg (V c main_arg0) ?_
    funext a; apply Fin.ext
    match a with
    | ⟨0, _⟩ => show win0_0.index t (0 : Fin 2) * 2000 + 1 * (j 0).val = win0_2.index t (0 : Fin 2) * 2000 + 1 * (j 0).val; rw [e0]
    | ⟨1, _⟩ => show win0_0.index t (1 : Fin 2) * 128 + 1 * k.val = k.val; rw [e1]; omega
  · show V c main_arg2 (((cfg0.win 1).blk t).view.emb (ix2 k ⟨(j 1).val, (j 1).isLt⟩)) = _
    refine congrArg (V c main_arg2) ?_
    funext a; apply Fin.ext
    match a with
    | ⟨0, _⟩ => show win0_1.index t (0 : Fin 2) * 128 + 1 * k.val = k.val; rw [e2]; omega
    | ⟨1, _⟩ => show win0_1.index t (1 : Fin 2) * 128 + 1 * (j 1).val = win0_2.index t (1 : Fin 2) * 128 + 1 * (j 1).val; rw [e3, e4]

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The result array after the region: the product of the two arrays the region found. -/
theorem region0_value (c : Dev nD) :
    (dat0 (F := Ideal) V c).arrAt 2 cfg0.N = Cert.MatProd.prod (V c main_arg0) (V c main_arg2) :=
  (dat0 (F := Ideal) V c).arrAt_eq_of_cover 2 (Cert.MatProd.prod (V c main_arg0) (V c main_arg2)) (fun t _ => flushed0_eq V c t) fun i => by
    have hN : grid0.N = 50 := N_0
    have hi0 : (i 0).val < 100000 := (i 0).isLt
    have hi1 : (i 1).val < 128 := (i 1).isLt
    refine ⟨⟨(i 0).val / 2000, by rw [show cfg0.N = 50 from N_0]; omega⟩, flush0_2 _, ?_⟩
    rw [mem_blk0]
    obtain ⟨e0, e1, e2, e3, e4, e5⟩ := idx0 ⟨(i 0).val / 2000, by rw [show cfg0.N = 50 from N_0]; omega⟩
    intro a
    match a with
    | ⟨0, _⟩ => show win0_2.index _ (0 : Fin 2) * 2000 ≤ (i 0).val ∧ (i 0).val < win0_2.index _ (0 : Fin 2) * 2000 + 2000; rw [e5]; show (i 0).val / 2000 * 2000 ≤ (i 0).val ∧ (i 0).val < (i 0).val / 2000 * 2000 + 2000; omega
    | ⟨1, _⟩ => show win0_2.index _ (1 : Fin 2) * 128 ≤ (i 1).val ∧ (i 1).val < win0_2.index _ (1 : Fin 2) * 128 + 128; rw [e4]; omega

/-! ## Region 2: a row-tiled product -/

/-- The body's one stored value is the product of its two loaded blocks (a change of float format is the identity
    over the extended reals, and the accumulator starts at zero). -/
theorem pay2_eq (x0 : Vec Ideal S2000x128 .f32) (x1 : Vec Ideal S128x128 .f32) :
    k2_pay1 (F := Ideal) x0 x1 = Cert.MatProd.prod x0 x1 :=
  by
  unfold k2_pay1
  simp only [shapeCast_self]
  exact Cert.MatProd.matmul_plain_zero_eq (φ₁ := .bf16) (φ₂ := .bf16) none _ _

/-- The printed index maps over the grid: the left operand's and the result's blocks are block row `t`, the right
    operand's is the whole matrix. -/
theorem idx2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What point `t` writes back is block `t` of the product of the two arrays as the region finds them. -/
theorem flushed2_eq (c : Dev nD) (t : Fin cfg2.N) :
    (dat2 (F := Ideal) V c).flushed 2 t
      = ((cfg2.win 2).blk t).view.read (Elt Ideal) (Cert.MatProd.prod (V c main_v47) (V c main_arg6)) := by
  show (cfg2.win 2).cut (grid2.coords t) ((dat2 V c).after 2 t) = _
  rw [after2_2]
  unfold out2_2
  rw [View.canon_unit_zero hzMM]
  simp only [View.ld_unit_zero (S := S2000x128) hzMM, View.ld_unit_zero (S := S128x128) hzMM]
  rw [pay2_eq]
  obtain ⟨e0, e1, e2, e3, e4, e5⟩ := idx2 t
  funext j
  refine prod_rows_eq (M := 100000) (M' := 2000) (K := 128) (N := 128) (V c main_v47) (V c main_arg6) (iblk2 V c 0 t) (iblk2 V c 1 t) j
    (((cfg2.win 2).blk t).view.emb j) (fun k => ?_) (fun k => ?_)
  · show V c main_v47 (((cfg2.win 0).blk t).view.emb (ix2 ⟨(j 0).val, (j 0).isLt⟩ k)) = _
    refine congrArg (V c main_v47) ?_
    funext a; apply Fin.ext
    match a with
    | ⟨0, _⟩ => show win2_0.index t (0 : Fin 2) * 2000 + 1 * (j 0).val = win2_2.index t (0 : Fin 2) * 2000 + 1 * (j 0).val; rw [e0]
    | ⟨1, _⟩ => show win2_0.index t (1 : Fin 2) * 128 + 1 * k.val = k.val; rw [e1]; omega
  · show V c main_arg6 (((cfg2.win 1).blk t).view.emb (ix2 k ⟨(j 1).val, (j 1).isLt⟩)) = _
    refine congrArg (V c main_arg6) ?_
    funext a; apply Fin.ext
    match a with
    | ⟨0, _⟩ => show win2_1.index t (0 : Fin 2) * 128 + 1 * k.val = k.val; rw [e2]; omega
    | ⟨1, _⟩ => show win2_1.index t (1 : Fin 2) * 128 + 1 * (j 1).val = win2_2.index t (1 : Fin 2) * 128 + 1 * (j 1).val; rw [e3, e4]

/-- An index of the result array is in point `t`'s block iff each coordinate is in the block's range on its axis. -/
theorem mem_blk2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- The result array after the region: the product of the two arrays the region found. -/
theorem region2_value (c : Dev nD) :
    (dat2 (F := Ideal) V c).arrAt 2 cfg2.N = Cert.MatProd.prod (V c main_v47) (V c main_arg6) :=
  (dat2 (F := Ideal) V c).arrAt_eq_of_cover 2 (Cert.MatProd.prod (V c main_v47) (V c main_arg6)) (fun t _ => flushed2_eq V c t) fun i => by
    have hN : grid2.N = 50 := N_2
    have hi0 : (i 0).val < 100000 := (i 0).isLt
    have hi1 : (i 1).val < 128 := (i 1).isLt
    refine ⟨⟨(i 0).val / 2000, by rw [show cfg2.N = 50 from N_2]; omega⟩, flush2_2 _, ?_⟩
    rw [mem_blk2]
    obtain ⟨e0, e1, e2, e3, e4, e5⟩ := idx2 ⟨(i 0).val / 2000, by rw [show cfg2.N = 50 from N_2]; omega⟩
    intro a
    match a with
    | ⟨0, _⟩ => show win2_2.index _ (0 : Fin 2) * 2000 ≤ (i 0).val ∧ (i 0).val < win2_2.index _ (0 : Fin 2) * 2000 + 2000; rw [e5]; show (i 0).val / 2000 * 2000 ≤ (i 0).val ∧ (i 0).val < (i 0).val / 2000 * 2000 + 2000; omega
    | ⟨1, _⟩ => show win2_2.index _ (1 : Fin 2) * 128 ≤ (i 1).val ∧ (i 1).val < win2_2.index _ (1 : Fin 2) * 128 + 128; rw [e4]; omega

/-! ## Region 4: a row-tiled product -/

/-- The body's one stored value is the product of its two loaded blocks (a change of float format is the identity
    over the extended reals, and the accumulator starts at zero). -/
theorem pay4_eq (x0 : Vec Ideal S2000x128 .f32) (x1 : Vec Ideal S128x40 .f32) :
    k4_pay1 (F := Ideal) x0 x1 = Cert.MatProd.prod x0 x1 :=
  by
  unfold k4_pay1
  simp only [shapeCast_self]
  exact Cert.MatProd.matmul_plain_zero_eq (φ₁ := .bf16) (φ₂ := .bf16) none _ _

/-- The printed index maps over the grid: the left operand's and the result's blocks are block row `t`, the right
    operand's is the whole matrix. -/
theorem idx4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

/-- What point `t` writes back is block `t` of the product of the two arrays as the region finds them. -/
theorem flushed4_eq (c : Dev nD) (t : Fin cfg4.N) :
    (dat4 (F := Ideal) V c).flushed 2 t
      = ((cfg4.win 2).blk t).view.read (Elt Ideal) (Cert.MatProd.prod (V c main_v65) (V c main_arg10)) := by
  show (cfg4.win 2).cut (grid4.coords t) ((dat4 V c).after 2 t) = _
  rw [after4_2]
  unfold out4_2
  rw [View.canon_unit_zero hzMM]
  simp only [View.ld_unit_zero (S := S2000x128) hzMM, View.ld_unit_zero (S := S128x40) hzMM]
  rw [pay4_eq]
  obtain ⟨e0, e1, e2, e3, e4, e5⟩ := idx4 t
  funext j
  refine prod_rows_eq (M := 100000) (M' := 2000) (K := 128) (N := 40) (V c main_v65) (V c main_arg10) (iblk4 V c 0 t) (iblk4 V c 1 t) j
    (((cfg4.win 2).blk t).view.emb j) (fun k => ?_) (fun k => ?_)
  · show V c main_v65 (((cfg4.win 0).blk t).view.emb (ix2 ⟨(j 0).val, (j 0).isLt⟩ k)) = _
    refine congrArg (V c main_v65) ?_
    funext a; apply Fin.ext
    match a with
    | ⟨0, _⟩ => show win4_0.index t (0 : Fin 2) * 2000 + 1 * (j 0).val = win4_2.index t (0 : Fin 2) * 2000 + 1 * (j 0).val; rw [e0]
    | ⟨1, _⟩ => show win4_0.index t (1 : Fin 2) * 128 + 1 * k.val = k.val; rw [e1]; omega
  · show V c main_arg10 (((cfg4.win 1).blk t).view.emb (ix2 k ⟨(j 1).val, (j 1).isLt⟩)) = _
    refine congrArg (V c main_arg10) ?_
    funext a; apply Fin.ext
    match a with
    | ⟨0, _⟩ => show win4_1.index t (0 : Fin 2) * 128 + 1 * k.val = k.val; rw [e2]; omega
    | ⟨1, _⟩ => show win4_1.index t (1 : Fin 2) * 40 + 1 * (j 1).val = win4_2.index t (1 : Fin 2) * 40 + 1 * (j 1).val; rw [e3, e4]

/-- An index of the result array is in point `t`'s block iff each coordinate is in the block's range on its axis. -/
theorem mem_blk4 (t : Fin cfg4.N) (i : S100000x40.Idx) :
    i ∈ ((cfg4.win 2).blk t).view.set ↔ ∀ a : Fin 2, win4_2.index t a * S2000x40.size a ≤ (i a).val ∧ (i a).val < win4_2.index t a * S2000x40.size a + S2000x40.size a := by
  show i ∈ ((View.whole main_v66).slice (win4_2.rect t)).set ↔ _
  rw [View.set_slice_whole, Rect.mem_set_unit]
  exact Iff.rfl

/-- The result array after the region: the product of the two arrays the region found. -/
theorem region4_value (c : Dev nD) :
    (dat4 (F := Ideal) V c).arrAt 2 cfg4.N = Cert.MatProd.prod (V c main_v65) (V c main_arg10) :=
  (dat4 (F := Ideal) V c).arrAt_eq_of_cover 2 (Cert.MatProd.prod (V c main_v65) (V c main_arg10)) (fun t _ => flushed4_eq V c t) fun i => by
    have hN : grid4.N = 50 := N_4
    have hi0 : (i 0).val < 100000 := (i 0).isLt
    have hi1 : (i 1).val < 40 := (i 1).isLt
    refine ⟨⟨(i 0).val / 2000, by rw [show cfg4.N = 50 from N_4]; omega⟩, flush4_2 _, ?_⟩
    rw [mem_blk4]
    obtain ⟨e0, e1, e2, e3, e4, e5⟩ := idx4 ⟨(i 0).val / 2000, by rw [show cfg4.N = 50 from N_4]; omega⟩
    intro a
    match a with
    | ⟨0, _⟩ => show win4_2.index _ (0 : Fin 2) * 2000 ≤ (i 0).val ∧ (i 0).val < win4_2.index _ (0 : Fin 2) * 2000 + 2000; rw [e5]; show (i 0).val / 2000 * 2000 ≤ (i 0).val ∧ (i 0).val < (i 0).val / 2000 * 2000 + 2000; omega
    | ⟨1, _⟩ => show win4_2.index _ (1 : Fin 2) * 40 ≤ (i 1).val ∧ (i 1).val < win4_2.index _ (1 : Fin 2) * 40 + 40; rw [e4]; omega

end Cert.KernelIdeal.Val

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.RegionLN.lean ====
/-
  The two normalisation layers of the network, as the kernel computes them: what region 1 and region 3 leave in
  their result arrays, for any contents of the arrays at the region's entry.

  Each of the 50 grid points takes 2000 consecutive rows of the operand, adds the bias row, normalises every row
  (mean and mean square deviation over its 128 entries, reciprocal square root, gain, shift) and clamps at zero.
  A row of the result depends only on the same row of the operand and on the three one-row arrays, so the 50 blocks
  are the 50 row ranges of ONE whole-array function, `Cert.Gcn.lnRelu`, and they tile the array.
-/
import proofs.«171338_j16415365005351_1_alg».proof.Proof.Gen.KernelIdeal.Frame
import proofs.«171338_j16415365005351_1_alg».proof.Proof.Spec
import proofs.«171338_j16415365005351_1_alg».proof.Proof.LibBroadcastTo
import proofs.«171338_j16415365005351_1_alg».proof.Proof.LibKeepdims
import Idealize.ShloMosaic.PureOps.Ideal.Laws
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen

/-! ## A row sum read at an index -/

/-- Over a row index `p`, the index with coordinate `k` inserted on the column axis is `(p, k)`. -/
theorem lift_row {m n : Nat} (h : (⟨2, ![m, n]⟩ : Shape).Reduces [1] ⟨1, ![m]⟩) (p : Fin m) (k : Fin n) :
    h.lift (ix1 p) k = ix2 p k := by
  funext c; apply Fin.ext
  match c with
  | ⟨0, _⟩ => rfl
  | ⟨1, _⟩ => rfl

/-- The sums of the rows of a matrix, kept as a column: entry `(p, u)` is the sum of row `p`. -/
theorem rowSum_col {m n : Nat} (v : FVec Ideal ⟨2, ![m, n]⟩ .f32) (h : (⟨2, ![m, n]⟩ : Shape).Reduces [1] ⟨1, ![m]⟩)
    (hφ : FKind.Formats .f32) (hacc : (0x00000000#32 : BitVec FTy.f32.bits) = 0x00000000#32)
    (hc : (⟨1, ![m]⟩ : Shape).ShapeCasts ⟨2, ![m, 1]⟩) (p : Fin m) (u : Fin 1) :
    shapeCast ⟨2, ![m, 1]⟩ (multiReduction .add [1] ⟨1, ![m]⟩ v 0x00000000#32 h hφ hacc) hc (ix2 p u)
      = ∑ k : Fin n, v (ix2 p k) := by
  refine (Cert.Keepdims.shapeCast_a_a1_apply _ hc p u).trans ?_
  refine (Ideal.multiReduction_add_single v 0x00000000#32 h hφ hacc (ix1 p)).trans ?_
  exact Finset.sum_congr rfl fun k _ => congrArg v (lift_row h p k)

/-- A reciprocal square root at an index is the element's. -/
theorem rsqrt_apply {s : Shape} (a : FVec Ideal s .f32) (i : s.Idx) : rsqrt a i = Ideal.rsqrt (a i) := rfl

/-- Both index offsets of a whole-buffer access are zero. -/
theorem hz : (![0, 0] : Fin 2 → Nat) = fun _ => 0 := funext fun a => by fin_cases a <;> rfl

/-! ## The body's arithmetic: one normalised, scaled, shifted and clamped row per row of the block -/

/-- Entry `(p, q)` of what the body of region 1 stores is entry `q` of the normalised row `p` of its first
    operand plus the bias row: every pointwise operation is read at the index, a row broadcast reads its one row, a
    column broadcast reads the row's statistic, and a row statistic is the sum over the row's 128 entries. -/
theorem k1_pay1_apply (x0 : Vec Ideal S2000x128 .f32) (x1 x2 x3 : Vec Ideal S1x128 .f32) (p : Fin 2000) (q : Fin 128) :
    k1_pay1 (F := Ideal) x0 x1 x2 x3 (ix2 p q)
      = Cert.Gcn.lnRow (fun k => x0 (ix2 p k) + x1 (ix2 0 k)) (fun k => x2 (ix2 0 k)) (fun k => x3 (ix2 0 k)) q := by
  unfold k1_pay1
  simp only [maximumf_apply, addf_apply, mulf_apply, subf_apply, divf_apply, rsqrt_apply, broadcast_apply, shapeCast_self,
    Cert.BroadcastTo.row_apply, Cert.BroadcastTo.col_apply, Ideal.ofBits_def, rowSum_col (m := 2000) (n := 128)]
  rfl

/-- The same body in region 3. -/
theorem k3_pay1_apply (x0 : Vec Ideal S2000x128 .f32) (x1 x2 x3 : Vec Ideal S1x128 .f32) (p : Fin 2000) (q : Fin 128) :
    k3_pay1 (F := Ideal) x0 x1 x2 x3 (ix2 p q)
      = Cert.Gcn.lnRow (fun k => x0 (ix2 p k) + x1 (ix2 0 k)) (fun k => x2 (ix2 0 k)) (fun k => x3 (ix2 0 k)) q := by
  unfold k3_pay1
  simp only [maximumf_apply, addf_apply, mulf_apply, subf_apply, divf_apply, rsqrt_apply, broadcast_apply, shapeCast_self,
    Cert.BroadcastTo.row_apply, Cert.BroadcastTo.col_apply, Ideal.ofBits_def, rowSum_col (m := 2000) (n := 128)]
  rfl

/-- A block of 2000 rows whose row `p` is row `tv · 2000 + p` of the array `A`: the body's result at an index `j` of the
    block is the whole-array layer at the index `i` of the array that `j` sits at. -/
theorem k1_block_value (A : Vec Ideal S100000x128 .f32) (B G BE : Vec Ideal S1x128 .f32) (x0 : Vec Ideal S2000x128 .f32) (tv : Nat)
    (hx0 : ∀ (p : Fin 2000) (r : Fin 100000) (k : Fin 128), r.val = tv * 2000 + p.val → x0 (ix2 p k) = A (ix2 r k))
    (j : S2000x128.Idx) (i : S100000x128.Idx) (h0 : (i 0).val = tv * 2000 + (j 0).val) (h1 : (i 1).val = (j 1).val) :
    k1_pay1 (F := Ideal) x0 B G BE j = Cert.Gcn.lnRelu A B G BE i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext h1
  refine (k1_pay1_apply x0 B G BE p s).trans ?_
  exact ((Cert.Gcn.lnRelu_apply x0 B G BE p s).symm).trans
    (Cert.Gcn.lnRelu_block_eq A x0 B G BE p r s fun k => hx0 p r k h0)

theorem k3_block_value (A : Vec Ideal S100000x128 .f32) (B G BE : Vec Ideal S1x128 .f32) (x0 : Vec Ideal S2000x128 .f32) (tv : Nat)
    (hx0 : ∀ (p : Fin 2000) (r : Fin 100000) (k : Fin 128), r.val = tv * 2000 + p.val → x0 (ix2 p k) = A (ix2 r k))
    (j : S2000x128.Idx) (i : S100000x128.Idx) (h0 : (i 0).val = tv * 2000 + (j 0).val) (h1 : (i 1).val = (j 1).val) :
    k3_pay1 (F := Ideal) x0 B G BE j = Cert.Gcn.lnRelu A B G BE i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext h1
  refine (k3_pay1_apply x0 B G BE p s).trans ?_
  exact ((Cert.Gcn.lnRelu_apply x0 B G BE p s).symm).trans
    (Cert.Gcn.lnRelu_block_eq A x0 B G BE p r s fun k => hx0 p r k h0)

/-! ## Region 1 -/

section Region1
variable (V : (c : Dev nD) → (b : Ref sig .tc) → Buf (Elt Ideal) ((c : Thread nD τ).loc b))

/-- The index maps of region 1, decided over its 50 points: the operand's and the result's block is the point's own
    row range; the three one-row arrays are read whole at every point. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `x 0` of the operand's block at point `t` is row `t · 2000 + x 0` of the operand. -/
theorem iblk1_0_apply (c : Dev nD) (t : Fin cfg1.N) (x : S2000x128.Idx) (k : S100000x128.Idx)
    (hk0 : (k 0).val = t.val * 2000 + (x 0).val) (hk1 : (k 1).val = (x 1).val) :
    (iblk1 V c 0 t : Vec Ideal S2000x128 .f32) x = (V c main_v43 : S100000x128.Idx → EReal) k := by
  obtain ⟨e0, e1, -⟩ := idx1 t
  unfold iblk1
  rw [View.read_apply]
  show V c main_v43 _ = V c main_v43 _
  congr 1
  funext a
  apply Fin.ext
  match a with
  | ⟨0, _⟩ => show win1_0.index t 0 * 2000 + 1 * (x 0).val = (k 0).val; rw [e0, hk0]; omega
  | ⟨1, _⟩ => show win1_0.index t 1 * 128 + 1 * (x 1).val = (k 1).val; rw [e1, hk1]; omega

/-- The one-row arrays' blocks are the arrays. -/
theorem iblk1_1_eq (c : Dev nD) (t : Fin cfg1.N) : (iblk1 V c 1 t : Vec Ideal S1x128 .f32) = (V c main_v44 : S1x128.Idx → EReal) := by
  obtain ⟨-, -, e0, e1, -⟩ := idx1 t
  funext x
  unfold iblk1
  rw [View.read_apply]
  show V c main_v44 _ = V c main_v44 x
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

theorem iblk1_2_eq (c : Dev nD) (t : Fin cfg1.N) : (iblk1 V c 2 t : Vec Ideal S1x128 .f32) = (V c main_v45 : S1x128.Idx → EReal) := by
  obtain ⟨-, -, -, -, e0, e1, -⟩ := idx1 t
  funext x
  unfold iblk1
  rw [View.read_apply]
  show V c main_v45 _ = V c main_v45 x
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

theorem iblk1_3_eq (c : Dev nD) (t : Fin cfg1.N) : (iblk1 V c 3 t : Vec Ideal S1x128 .f32) = (V c main_v46 : S1x128.Idx → EReal) := by
  obtain ⟨-, -, -, -, -, -, e0, e1, -⟩ := idx1 t
  funext x
  unfold iblk1
  rw [View.read_apply]
  show V c main_v46 _ = V c main_v46 x
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- What point `t` writes back is block `t` of the layer of the whole arrays. -/
theorem flushed1 (c : Dev nD) (t : Fin cfg1.N) :
    (dat1 (F := Ideal) V c).flushed 4 t = ((cfg1.win 4).blk t).view.read (Elt Ideal)
      (Cert.Gcn.lnRelu (V c main_v43 : S100000x128.Idx → EReal) (V c main_v44 : S1x128.Idx → EReal) (V c main_v45 : S1x128.Idx → EReal) (V c main_v46 : S1x128.Idx → EReal)) := by
  show (cfg1.win 4).cut (grid1.coords t) ((dat1 V c).after 4 t) = _
  rw [after1_4]
  unfold out1_4
  rw [View.canon_unit_zero hz]
  simp only [View.ld_unit_zero (S := S2000x128) hz, View.ld_unit_zero (S := S1x128) hz]
  rw [iblk1_1_eq V c t, iblk1_2_eq V c t, iblk1_3_eq V c t]
  obtain ⟨-, -, -, -, -, -, -, -, e8, e9⟩ := idx1 t
  funext j
  refine k1_block_value (V c main_v43) (V c main_v44) (V c main_v45) (V c main_v46) (iblk1 V c 0 t) t.val
    (fun p r k h => iblk1_0_apply V c t (ix2 p k) (ix2 r k) h rfl) j (((cfg1.win 4).blk t).view.emb j) ?_ ?_
  · show win1_4.index t (0 : Fin 2) * 2000 + 1 * (j 0).val = t.val * 2000 + (j 0).val
    rw [e8]; omega
  · show win1_4.index t (1 : Fin 2) * 128 + 1 * (j 1).val = (j 1).val
    rw [e9]; omega

/-- An index of the result array is in point `t`'s block iff each coordinate is in the block's range on its axis. -/
theorem mem_blk1 (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v47).slice (win1_4.rect t)).set ↔ _
  rw [View.set_slice_whole, Rect.mem_set_unit]
  exact Iff.rfl

/-- Row `r` of the result is in the block of point `r / 2000`, and every point writes its block back. -/
theorem cover1 (i : S100000x128.Idx) :
    ∃ t : Fin cfg1.N, (cfg1.win 4).flush t = true ∧ i ∈ ((cfg1.win 4).blk t).view.set := by
  have hN : grid1.N = 50 := N_1
  have hi0 : (i 0).val < 100000 := (i 0).isLt
  have hi1 : (i 1).val < 128 := (i 1).isLt
  obtain ⟨t, ht⟩ : ∃ t : Fin cfg1.N, t.val = (i 0).val / 2000 := ⟨⟨(i 0).val / 2000, by show _ < grid1.N; omega⟩, rfl⟩
  obtain ⟨-, -, -, -, -, -, -, -, e8, e9⟩ := idx1 t
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; rw [e8]; omega
  | ⟨1, _⟩ => show win1_4.index t (1 : Fin 2) * 128 ≤ (i 1).val ∧ (i 1).val < win1_4.index t (1 : Fin 2) * 128 + 128; rw [e9]; omega

/-- REGION 1: its result array ends holding LayerNorm-then-ReLU of its operand plus the bias row, whatever the
    arrays hold when the region is entered. -/
theorem region1_value (V : (c : Dev nD) → (b : Ref sig .tc) → Buf (Elt Ideal) ((c : Thread nD τ).loc b)) (c : Dev nD) :
    (dat1 (F := Ideal) V c).arrAt 4 cfg1.N = Cert.Gcn.lnRelu (V c main_v43) (V c main_v44) (V c main_v45) (V c main_v46) :=
  (dat1 (F := Ideal) V c).arrAt_eq_of_cover 4 _ (fun t _ => flushed1 V c t) (fun i => cover1 i)

end Region1

/-! ## Region 3 -/

section Region3
variable (V : (c : Dev nD) → (b : Ref sig .tc) → Buf (Elt Ideal) ((c : Thread nD τ).loc b))

/-- The index maps of region 3, decided over its 50 points: the operand's and the result's block is the point's own
    row range; the three one-row arrays are read whole at every point. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `x 0` of the operand's block at point `t` is row `t · 2000 + x 0` of the operand. -/
theorem iblk3_0_apply (c : Dev nD) (t : Fin cfg3.N) (x : S2000x128.Idx) (k : S100000x128.Idx)
    (hk0 : (k 0).val = t.val * 2000 + (x 0).val) (hk1 : (k 1).val = (x 1).val) :
    (iblk3 V c 0 t : Vec Ideal S2000x128 .f32) x = (V c main_v61 : S100000x128.Idx → EReal) k := by
  obtain ⟨e0, e1, -⟩ := idx3 t
  unfold iblk3
  rw [View.read_apply]
  show V c main_v61 _ = V c main_v61 _
  congr 1
  funext a
  apply Fin.ext
  match a with
  | ⟨0, _⟩ => show win3_0.index t 0 * 2000 + 1 * (x 0).val = (k 0).val; rw [e0, hk0]; omega
  | ⟨1, _⟩ => show win3_0.index t 1 * 128 + 1 * (x 1).val = (k 1).val; rw [e1, hk1]; omega

/-- The one-row arrays' blocks are the arrays. -/
theorem iblk3_1_eq (c : Dev nD) (t : Fin cfg3.N) : (iblk3 V c 1 t : Vec Ideal S1x128 .f32) = (V c main_v62 : S1x128.Idx → EReal) := by
  obtain ⟨-, -, e0, e1, -⟩ := idx3 t
  funext x
  unfold iblk3
  rw [View.read_apply]
  show V c main_v62 _ = V c main_v62 x
  congr 1
  funext a
  apply Fin.ext
  match a with
  | ⟨0, _⟩ => show win3_1.index t 0 * 1 + 1 * (x 0).val = (x 0).val; rw [e0]; omega
  | ⟨1, _⟩ => show win3_1.index t 1 * 128 + 1 * (x 1).val = (x 1).val; rw [e1]; omega

theorem iblk3_2_eq (c : Dev nD) (t : Fin cfg3.N) : (iblk3 V c 2 t : Vec Ideal S1x128 .f32) = (V c main_v63 : S1x128.Idx → EReal) := by
  obtain ⟨-, -, -, -, e0, e1, -⟩ := idx3 t
  funext x
  unfold iblk3
  rw [View.read_apply]
  show V c main_v63 _ = V c main_v63 x
  congr 1
  funext a
  apply Fin.ext
  match a with
  | ⟨0, _⟩ => show win3_2.index t 0 * 1 + 1 * (x 0).val = (x 0).val; rw [e0]; omega
  | ⟨1, _⟩ => show win3_2.index t 1 * 128 + 1 * (x 1).val = (x 1).val; rw [e1]; omega

theorem iblk3_3_eq (c : Dev nD) (t : Fin cfg3.N) : (iblk3 V c 3 t : Vec Ideal S1x128 .f32) = (V c main_v64 : S1x128.Idx → EReal) := by
  obtain ⟨-, -, -, -, -, -, e0, e1, -⟩ := idx3 t
  funext x
  unfold iblk3
  rw [View.read_apply]
  show V c main_v64 _ = V c main_v64 x
  congr 1
  funext a
  apply Fin.ext
  match a with
  | ⟨0, _⟩ => show win3_3.index t 0 * 1 + 1 * (x 0).val = (x 0).val; rw [e0]; omega
  | ⟨1, _⟩ => show win3_3.index t 1 * 128 + 1 * (x 1).val = (x 1).val; rw [e1]; omega

/-- What point `t` writes back is block `t` of the layer of the whole arrays. -/
theorem flushed3 (c : Dev nD) (t : Fin cfg3.N) :
    (dat3 (F := Ideal) V c).flushed 4 t = ((cfg3.win 4).blk t).view.read (Elt Ideal)
      (Cert.Gcn.lnRelu (V c main_v61 : S100000x128.Idx → EReal) (V c main_v62 : S1x128.Idx → EReal) (V c main_v63 : S1x128.Idx → EReal) (V c main_v64 : S1x128.Idx → EReal)) := by
  show (cfg3.win 4).cut (grid3.coords t) ((dat3 V c).after 4 t) = _
  rw [after3_4]
  unfold out3_4
  rw [View.canon_unit_zero hz]
  simp only [View.ld_unit_zero (S := S2000x128) hz, View.ld_unit_zero (S := S1x128) hz]
  rw [iblk3_1_eq V c t, iblk3_2_eq V c t, iblk3_3_eq V c t]
  obtain ⟨-, -, -, -, -, -, -, -, e8, e9⟩ := idx3 t
  funext j
  refine k3_block_value (V c main_v61) (V c main_v62) (V c main_v63) (V c main_v64) (iblk3 V c 0 t) t.val
    (fun p r k h => iblk3_0_apply V c t (ix2 p k) (ix2 r k) h rfl) j (((cfg3.win 4).blk t).view.emb j) ?_ ?_
  · show win3_4.index t (0 : Fin 2) * 2000 + 1 * (j 0).val = t.val * 2000 + (j 0).val
    rw [e8]; omega
  · show win3_4.index t (1 : Fin 2) * 128 + 1 * (j 1).val = (j 1).val
    rw [e9]; omega

/-- An index of the result array is in point `t`'s block iff each coordinate is in the block's range on its axis. -/
theorem mem_blk3 (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v65).slice (win3_4.rect t)).set ↔ _
  rw [View.set_slice_whole, Rect.mem_set_unit]
  exact Iff.rfl

/-- Row `r` of the result is in the block of point `r / 2000`, and every point writes its block back. -/
theorem cover3 (i : S100000x128.Idx) :
    ∃ t : Fin cfg3.N, (cfg3.win 4).flush t = true ∧ i ∈ ((cfg3.win 4).blk t).view.set := by
  have hN : grid3.N = 50 := N_3
  have hi0 : (i 0).val < 100000 := (i 0).isLt
  have hi1 : (i 1).val < 128 := (i 1).isLt
  obtain ⟨t, ht⟩ : ∃ t : Fin cfg3.N, t.val = (i 0).val / 2000 := ⟨⟨(i 0).val / 2000, by show _ < grid3.N; omega⟩, rfl⟩
  obtain ⟨-, -, -, -, -, -, -, -, e8, e9⟩ := idx3 t
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; rw [e8]; omega
  | ⟨1, _⟩ => show win3_4.index t (1 : Fin 2) * 128 ≤ (i 1).val ∧ (i 1).val < win3_4.index t (1 : Fin 2) * 128 + 128; rw [e9]; omega

/-- REGION 3: its result array ends holding LayerNorm-then-ReLU of its operand plus the bias row, whatever the
    arrays hold when the region is entered. -/
theorem region3_value (V : (c : Dev nD) → (b : Ref sig .tc) → Buf (Elt Ideal) ((c : Thread nD τ).loc b)) (c : Dev nD) :
    (dat3 (F := Ideal) V c).arrAt 4 cfg3.N = Cert.Gcn.lnRelu (V c main_v61) (V c main_v62) (V c main_v63) (V c main_v64) :=
  (dat3 (F := Ideal) V c).arrAt_eq_of_cover 4 _ (fun t _ => flushed3 V c t) (fun i => cover3 i)

end Region3

end Cert.KernelIdeal.Val

end
-- ==== Proof.RegionLS.lean ====
/-
  The last layer of the network, as the kernel computes it: what region 5 leaves in its result array, for any
  contents of the arrays at the region's entry.

  Each of the 50 grid points takes 2000 consecutive rows of the operand, adds the bias row, and from every entry of a
  row subtracts the row's maximum and then the logarithm of the row's sum of exponentials of those differences. A row
  of the result depends only on the same row of the operand and on the bias row, so the 50 blocks are the 50 row
  ranges of ONE whole-array function, `Cert.Gcn.logSoftmax`, and they tile the array.
-/
import proofs.«171338_j16415365005351_1_alg».proof.Proof.Gen.KernelIdeal.Frame
import proofs.«171338_j16415365005351_1_alg».proof.Proof.Spec
import proofs.«171338_j16415365005351_1_alg».proof.Proof.LibBroadcastTo
import proofs.«171338_j16415365005351_1_alg».proof.Proof.LibKeepdims
import Idealize.ShloMosaic.PureOps.Ideal.Laws
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen

/-! ## A row statistic read at an index -/

/-- Over a row index `p`, the index with coordinate `k` inserted on the column axis is `(p, k)`. -/
theorem row_lift {m n : Nat} (h : (⟨2, ![m, n]⟩ : Shape).Reduces [1] ⟨1, ![m]⟩) (p : Fin m) (k : Fin n) :
    h.lift (ix1 p) k = ix2 p k := by
  funext c; apply Fin.ext
  match c with
  | ⟨0, _⟩ => rfl
  | ⟨1, _⟩ => rfl

/-- The sums of the rows of a matrix, kept as a column: entry `(p, u)` is the sum of row `p`. -/
theorem rowSum_column {m n : Nat} (v : FVec Ideal ⟨2, ![m, n]⟩ .f32) (h : (⟨2, ![m, n]⟩ : Shape).Reduces [1] ⟨1, ![m]⟩)
    (hφ : FKind.Formats .f32) (hacc : (0x00000000#32 : BitVec FTy.f32.bits) = 0x00000000#32)
    (hc : (⟨1, ![m]⟩ : Shape).ShapeCasts ⟨2, ![m, 1]⟩) (p : Fin m) (u : Fin 1) :
    shapeCast ⟨2, ![m, 1]⟩ (multiReduction .add [1] ⟨1, ![m]⟩ v 0x00000000#32 h hφ hacc) hc (ix2 p u)
      = ∑ k : Fin n, v (ix2 p k) := by
  refine (Cert.Keepdims.shapeCast_a_a1_apply _ hc p u).trans ?_
  refine (Ideal.multiReduction_add_single v 0x00000000#32 h hφ hacc (ix1 p)).trans ?_
  exact Finset.sum_congr rfl fun k _ => congrArg v (row_lift h p k)

/-- The maxima of the rows of a matrix, kept as a column: entry `(p, u)` is the maximum of row `p`, the fold of
    `max` over the row from the word `-inf`. -/
theorem rowMax_col {m n : Nat} (v : FVec Ideal ⟨2, ![m, n]⟩ .f32) (h : (⟨2, ![m, n]⟩ : Shape).Reduces [1] ⟨1, ![m]⟩)
    (hφ : FKind.Formats .f32) (hacc : (0xFF800000#32 : BitVec FTy.f32.bits) = 0xFF800000#32)
    (hc : (⟨1, ![m]⟩ : Shape).ShapeCasts ⟨2, ![m, 1]⟩) (p : Fin m) (u : Fin 1) :
    shapeCast ⟨2, ![m, 1]⟩ (multiReduction .maximumf [1] ⟨1, ![m]⟩ v 0xFF800000#32 h hφ hacc) hc (ix2 p u)
      = Cert.Gcn.rowMax (fun k : Fin n => v (ix2 p k)) := by
  refine (Cert.Keepdims.shapeCast_a_a1_apply _ hc p u).trans ?_
  refine (Ideal.multiReduction_maximumf_single v 0xFF800000#32 h hφ hacc (ix1 p)).trans ?_
  show (Finset.univ : Finset (Fin n)).fold max (Ideal.ofBits .f32 0xFF800000#32) (v ∘ h.lift (ix1 p))
    = (Finset.univ : Finset (Fin n)).fold max (Ideal.ofBits .f32 0xFF800000#32) (fun k => v (ix2 p k))
  have e : (v ∘ h.lift (ix1 p)) = fun k : Fin n => v (ix2 p k) := funext fun k => congrArg v (row_lift h p k)
  rw [e]
  rfl

/-- An exponential and a logarithm at an index are the element's. -/
theorem exp_apply {s : Shape} (a : FVec Ideal s .f32) (i : s.Idx) : exp a i = Ideal.exp (a i) := rfl
theorem log_apply {s : Shape} (a : FVec Ideal s .f32) (i : s.Idx) : log a i = Ideal.log (a i) := rfl

/-- Both index offsets of a whole-buffer access are zero. -/
theorem zero_offsets : (![0, 0] : Fin 2 → Nat) = fun _ => 0 := funext fun a => by fin_cases a <;> rfl

/-! ## The body's arithmetic: the logarithm of the softmax of every row of the block -/

/-- Entry `(p, q)` of what the body of region 5 stores is entry `q` of the log-softmax of row `p` of its first operand
    plus the bias row: every pointwise operation is read at the index, the row broadcast reads its one row, a column
    broadcast reads the row's statistic, the row maximum is the fold of `max` over the row's 40 entries and the row sum
    the sum over them. -/
theorem k5_pay1_apply (x0 : Vec Ideal S2000x40 .f32) (x1 : Vec Ideal S1x40 .f32) (p : Fin 2000) (q : Fin 40) :
    k5_pay1 (F := Ideal) x0 x1 (ix2 p q) = Cert.Gcn.lsRow (fun k => x0 (ix2 p k) + x1 (ix2 0 k)) q := by
  unfold k5_pay1
  simp only [addf_apply, subf_apply, exp_apply, log_apply, shapeCast_self,
    Cert.BroadcastTo.row_apply, Cert.BroadcastTo.col_apply, rowSum_column (m := 2000) (n := 40), rowMax_col (m := 2000) (n := 40)]
  rfl

/-- A block of 2000 rows whose row `p` is row `tv · 2000 + p` of the array `A`: the body's result at an index `j` of the
    block is the whole-array layer at the index `i` of the array that `j` sits at. -/
theorem k5_block_value (A : Vec Ideal S100000x40 .f32) (B : Vec Ideal S1x40 .f32) (x0 : Vec Ideal S2000x40 .f32) (tv : Nat)
    (hx0 : ∀ (p : Fin 2000) (r : Fin 100000) (k : Fin 40), r.val = tv * 2000 + p.val → x0 (ix2 p k) = A (ix2 r k))
    (j : S2000x40.Idx) (i : S100000x40.Idx) (h0 : (i 0).val = tv * 2000 + (j 0).val) (h1 : (i 1).val = (j 1).val) :
    k5_pay1 (F := Ideal) x0 B j = Cert.Gcn.logSoftmax A B i := by
  obtain ⟨p, q, rfl⟩ : ∃ (p : Fin 2000) (q : Fin 40), j = ix2 p q := ⟨j 0, j 1, eq_ix2 j⟩
  obtain ⟨r, s, rfl⟩ : ∃ (r : Fin 100000) (s : Fin 40), i = ix2 r s := ⟨i 0, i 1, eq_ix2 i⟩
  obtain rfl : s = q := Fin.ext h1
  refine (k5_pay1_apply x0 B p s).trans ?_
  exact ((Cert.Gcn.logSoftmax_apply x0 B p s).symm).trans
    (Cert.Gcn.logSoftmax_block_eq A x0 B p r s fun k => hx0 p r k h0)

/-! ## Region 5 -/

section Region5
variable (V : (c : Dev nD) → (b : Ref sig .tc) → Buf (Elt Ideal) ((c : Thread nD τ).loc b))

/-- The index maps of region 5, decided over its 50 points: the operand's and the result's block is the point's own
    row range; the bias row is read whole at every point. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row `x 0` of the operand's block at point `t` is row `t · 2000 + x 0` of the operand. -/
theorem iblk5_0_apply (c : Dev nD) (t : Fin cfg5.N) (x : S2000x40.Idx) (k : S100000x40.Idx)
    (hk0 : (k 0).val = t.val * 2000 + (x 0).val) (hk1 : (k 1).val = (x 1).val) :
    (iblk5 V c 0 t : Vec Ideal S2000x40 .f32) x = (V c main_v79 : S100000x40.Idx → EReal) k := by
  obtain ⟨e0, e1, -⟩ := idx5 t
  unfold iblk5
  rw [View.read_apply]
  show V c main_v79 _ = V c main_v79 _
  congr 1
  funext a
  apply Fin.ext
  match a with
  | ⟨0, _⟩ => show win5_0.index t 0 * 2000 + 1 * (x 0).val = (k 0).val; rw [e0, hk0]; omega
  | ⟨1, _⟩ => show win5_0.index t 1 * 40 + 1 * (x 1).val = (k 1).val; rw [e1, hk1]; omega

/-- The bias row's block is the row. -/
theorem iblk5_1_eq (c : Dev nD) (t : Fin cfg5.N) : (iblk5 V c 1 t : Vec Ideal S1x40 .f32) = (V c main_v80 : S1x40.Idx → EReal) := by
  obtain ⟨-, -, e0, e1, -⟩ := idx5 t
  funext x
  unfold iblk5
  rw [View.read_apply]
  show V c main_v80 _ = V c main_v80 x
  congr 1
  funext a
  apply Fin.ext
  match a with
  | ⟨0, _⟩ => show win5_1.index t 0 * 1 + 1 * (x 0).val = (x 0).val; rw [e0]; omega
  | ⟨1, _⟩ => show win5_1.index t 1 * 40 + 1 * (x 1).val = (x 1).val; rw [e1]; omega

/-- What point `t` writes back is block `t` of the layer of the whole arrays. -/
theorem flushed5 (c : Dev nD) (t : Fin cfg5.N) :
    (dat5 (F := Ideal) V c).flushed 2 t = ((cfg5.win 2).blk t).view.read (Elt Ideal)
      (Cert.Gcn.logSoftmax (V c main_v79 : S100000x40.Idx → EReal) (V c main_v80 : S1x40.Idx → EReal)) := by
  show (cfg5.win 2).cut (grid5.coords t) ((dat5 V c).after 2 t) = _
  rw [after5_2]
  unfold out5_2
  rw [View.canon_unit_zero zero_offsets]
  simp only [View.ld_unit_zero (S := S2000x40) zero_offsets, View.ld_unit_zero (S := S1x40) zero_offsets]
  rw [iblk5_1_eq V c t]
  obtain ⟨-, -, -, -, e4, e5⟩ := idx5 t
  funext j
  refine k5_block_value (V c main_v79) (V c main_v80) (iblk5 V c 0 t) t.val
    (fun p r k h => iblk5_0_apply V c t (ix2 p k) (ix2 r k) h rfl) j (((cfg5.win 2).blk t).view.emb j) ?_ ?_
  · show win5_2.index t (0 : Fin 2) * 2000 + 1 * (j 0).val = t.val * 2000 + (j 0).val
    rw [e4]; omega
  · show win5_2.index t (1 : Fin 2) * 40 + 1 * (j 1).val = (j 1).val
    rw [e5]; omega

/-- An index of the result array is in point `t`'s block iff each coordinate is in the block's range on its axis. -/
theorem mem_blk5 (t : Fin cfg5.N) (i : S100000x40.Idx) :
    i ∈ ((cfg5.win 2).blk t).view.set ↔ ∀ a : Fin 2, win5_2.index t a * S2000x40.size a ≤ (i a).val ∧ (i a).val < win5_2.index t a * S2000x40.size a + S2000x40.size a := by
  show i ∈ ((View.whole main_v81).slice (win5_2.rect t)).set ↔ _
  rw [View.set_slice_whole, Rect.mem_set_unit]
  exact Iff.rfl

/-- Row `r` of the result is in the block of point `r / 2000`, and every point writes its block back. -/
theorem cover5 (i : S100000x40.Idx) :
    ∃ t : Fin cfg5.N, (cfg5.win 2).flush t = true ∧ i ∈ ((cfg5.win 2).blk t).view.set := by
  have hN : grid5.N = 50 := N_5
  have hi0 : (i 0).val < 100000 := (i 0).isLt
  have hi1 : (i 1).val < 40 := (i 1).isLt
  obtain ⟨t, ht⟩ : ∃ t : Fin cfg5.N, t.val = (i 0).val / 2000 := ⟨⟨(i 0).val / 2000, by show _ < grid5.N; omega⟩, rfl⟩
  obtain ⟨-, -, -, -, e4, e5⟩ := idx5 t
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; rw [e4]; omega
  | ⟨1, _⟩ => show win5_2.index t (1 : Fin 2) * 40 ≤ (i 1).val ∧ (i 1).val < win5_2.index t (1 : Fin 2) * 40 + 40; rw [e5]; omega

/-- REGION 5: its result array ends holding the log-softmax of its operand plus the bias row, whatever the arrays
    hold when the region is entered. -/
theorem region5_value (V : (c : Dev nD) → (b : Ref sig .tc) → Buf (Elt Ideal) ((c : Thread nD τ).loc b)) (c : Dev nD) :
    (dat5 (F := Ideal) V c).arrAt 2 cfg5.N = Cert.Gcn.logSoftmax (V c main_v79) (V c main_v80) :=
  (dat5 (F := Ideal) V c).arrAt_eq_of_cover 2 _ (fun t _ => flushed5 V c t) (fun i => cover5 i)

end Region5

end Cert.KernelIdeal.Val

end
-- ==== Proof.KernelValue.lean ====
/-
  The idealized kernel's result array at the end of @main, as the network's function of the twelve argument arrays:
  the contents at the boundaries of @main's twelve segments, followed from the launch to the return. A host stretch
  is read by its operations; a region replaces its result array by the value of its row tiles put together and
  leaves every other buffer; the edge data computed before the first region and the arguments are never written again.
-/
import proofs.«171338_j16415365005351_1_alg».proof.Proof.KernelHost
import proofs.«171338_j16415365005351_1_alg».proof.Proof.RegionMM
import proofs.«171338_j16415365005351_1_alg».proof.Proof.RegionLN
import proofs.«171338_j16415365005351_1_alg».proof.Proof.RegionLS

set_option maxRecDepth 16384

noncomputable section

namespace Cert.KernelIdeal.Val

open Cert.KernelIdeal Cert.KernelIdeal.Gen Cert.KernelIdeal.Facts₀ Cert.Gcn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The edge data as functions of the launched edge list. -/
abbrev SRC : IArr S1700000 := srcOf (m ((c : Thread nD τ).loc main_arg1))
abbrev DST : IArr S1700000 := dstOf (m ((c : Thread nD τ).loc main_arg1))
abbrev NRM : FArr S1700000 := normOf (SRC m c) (DST m c)

/-! ## Before the first region -/

theorem W3_eq : W3 m ρ c = after preB (after preA (W0 m ρ c)) := pre_after (W0 m ρ c)

theorem W3_src : W3 m ρ c (Proc.devRef .tc main_v3) = SRC m c := by
  rw [W3_eq, preB_keep _ main_v3 (by decide)]; exact preA_src _
theorem W3_dst : W3 m ρ c (Proc.devRef .tc main_v6) = DST m c := by
  rw [W3_eq, preB_keep _ main_v6 (by decide)]; exact preA_dst _
theorem W3_nrm : W3 m ρ c (Proc.devRef .tc main_v29) = NRM m c := by
  rw [W3_eq, preB_norm, preA_src, preA_dst]
theorem W3_arg (r : Ref sig .tc) (hr : r ∈ [main_arg0, main_arg1, main_arg2, main_arg3, main_arg4, main_arg5, main_arg6, main_arg7, main_arg8, main_arg9, main_arg10, main_arg11]) :
    W3 m ρ c (Proc.devRef .tc r) = m ((c : Thread nD τ).loc r) := by
  rw [W3_eq, preB_keep _ r (List.mem_cons_of_mem _ (List.mem_cons_of_mem _ hr))]; exact preA_keep _ r hr

/-! ## What is kept up to each boundary -/

theorem keep4 (r : Ref sig .tc) (h0 : ∀ w, Pipeline.arrRef spec0 w ≠ r) :
    W4 m ρ c (Proc.devRef .tc r) = W3 m ρ c (Proc.devRef .tc r) := W4_of_ne m ρ c r h0

theorem keep6 (r : Ref sig .tc) (h0 : ∀ w, Pipeline.arrRef spec0 w ≠ r) (h1 : ∀ w, Pipeline.arrRef spec1 w ≠ r)
    (hl : r ∈ [main_v3, main_v6, main_v29, main_arg6, main_arg7, main_arg8, main_arg9, main_arg10, main_arg11]) :
    W6 m ρ c (Proc.devRef .tc r) = W3 m ρ c (Proc.devRef .tc r) :=
  (W6_of_ne m ρ c r h1).trans ((h1_keep (W4 m ρ c) r hl).trans (keep4 m ρ c r h0))

theorem keep7 (r : Ref sig .tc) (h0 : ∀ w, Pipeline.arrRef spec0 w ≠ r) (h1 : ∀ w, Pipeline.arrRef spec1 w ≠ r)
    (h2 : ∀ w, Pipeline.arrRef spec2 w ≠ r)
    (hl : r ∈ [main_v3, main_v6, main_v29, main_arg6, main_arg7, main_arg8, main_arg9, main_arg10, main_arg11]) :
    W7 m ρ c (Proc.devRef .tc r) = W3 m ρ c (Proc.devRef .tc r) :=
  (W7_of_ne m ρ c r h2).trans (keep6 m ρ c r h0 h1 hl)

theorem keep9 (r : Ref sig .tc) (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r)
    (hl : r ∈ [main_v3, main_v6, main_v29, main_arg6, main_arg7, main_arg8, main_arg9, main_arg10, main_arg11])
    (hl' : r ∈ [main_v3, main_v6, main_v29, main_arg10, main_arg11]) :
    W9 m ρ c (Proc.devRef .tc r) = W3 m ρ c (Proc.devRef .tc r) :=
  (W9_of_ne m ρ c r h3).trans ((h3_keep (W7 m ρ c) r hl').trans (keep7 m ρ c r h0 h1 h2 hl))

theorem keep10 (r : Ref sig .tc) (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r) (h4 : ∀ w, Pipeline.arrRef spec4 w ≠ r)
    (hl : r ∈ [main_v3, main_v6, main_v29, main_arg6, main_arg7, main_arg8, main_arg9, main_arg10, main_arg11])
    (hl' : r ∈ [main_v3, main_v6, main_v29, main_arg10, main_arg11]) :
    W10 m ρ c (Proc.devRef .tc r) = W3 m ρ c (Proc.devRef .tc r) :=
  (W10_of_ne m ρ c r h4).trans (keep9 m ρ c r h0 h1 h2 h3 hl hl')

/-! ## Layer 1 -/

/-- The first product. -/
abbrev H1 : FArr S100000x128 := Cert.MatProd.prod (m ((c : Thread nD τ).loc main_arg0)) (m ((c : Thread nD τ).loc main_arg2))
/-- Its aggregation. -/
abbrev A1 : FArr S100000x128 := agg128 (SRC m c) (DST m c) (NRM m c) (H1 m c)
/-- The first layer's output. -/
abbrev Y1 : FArr S100000x128 := lnRelu (A1 m c) (rowOf (m ((c : Thread nD τ).loc main_arg3))) (rowOf (m ((c : Thread nD τ).loc main_arg4))) (rowOf (m ((c : Thread nD τ).loc main_arg5)))

theorem W4_v30 : W4 m ρ c (Proc.devRef .tc main_v30) = H1 m c := by
  refine (W4_arr m ρ c 2).trans ((region0_value (V3 m ρ) c).trans ?_)
  show Cert.MatProd.prod (W3 m ρ c (Proc.devRef .tc main_arg0)) (W3 m ρ c (Proc.devRef .tc main_arg2)) = _
  rw [W3_arg m ρ c main_arg0 (by decide), W3_arg m ρ c main_arg2 (by decide)]

theorem W5_v43 : W5 m ρ c (Proc.devRef .tc main_v43) = A1 m c := by
  show after hostOps1 (W4 m ρ c) _ = _
  rw [h1_agg, keep4 m ρ c main_v3 (by decide), keep4 m ρ c main_v6 (by decide), keep4 m ρ c main_v29 (by decide),
    W3_src, W3_dst, W3_nrm, W4_v30]

theorem W5_v44 : W5 m ρ c (Proc.devRef .tc main_v44) = rowOf (m ((c : Thread nD τ).loc main_arg3)) := by
  show after hostOps1 (W4 m ρ c) _ = _
  rw [h1_main_v44, keep4 m ρ c main_arg3 (by decide), W3_arg m ρ c main_arg3 (by decide)]
  exact shapeCast_row _ _
theorem W5_v45 : W5 m ρ c (Proc.devRef .tc main_v45) = rowOf (m ((c : Thread nD τ).loc main_arg4)) := by
  show after hostOps1 (W4 m ρ c) _ = _
  rw [h1_main_v45, keep4 m ρ c main_arg4 (by decide), W3_arg m ρ c main_arg4 (by decide)]
  exact shapeCast_row _ _
theorem W5_v46 : W5 m ρ c (Proc.devRef .tc main_v46) = rowOf (m ((c : Thread nD τ).loc main_arg5)) := by
  show after hostOps1 (W4 m ρ c) _ = _
  rw [h1_main_v46, keep4 m ρ c main_arg5 (by decide), W3_arg m ρ c main_arg5 (by decide)]
  exact shapeCast_row _ _

theorem W6_v47 : W6 m ρ c (Proc.devRef .tc main_v47) = Y1 m c := by
  refine (W6_arr m ρ c 4).trans ((region1_value (V5 m ρ) c).trans ?_)
  show lnRelu (W5 m ρ c (Proc.devRef .tc main_v43)) (W5 m ρ c (Proc.devRef .tc main_v44)) (W5 m ρ c (Proc.devRef .tc main_v45)) (W5 m ρ c (Proc.devRef .tc main_v46)) = _
  rw [W5_v43, W5_v44, W5_v45, W5_v46]

/-! ## Layer 2 -/

abbrev H2 : FArr S100000x128 := Cert.MatProd.prod (Y1 m c) (m ((c : Thread nD τ).loc main_arg6))
abbrev A2 : FArr S100000x128 := agg128 (SRC m c) (DST m c) (NRM m c) (H2 m c)
abbrev Y2 : FArr S100000x128 := lnRelu (A2 m c) (rowOf (m ((c : Thread nD τ).loc main_arg7))) (rowOf (m ((c : Thread nD τ).loc main_arg8))) (rowOf (m ((c : Thread nD τ).loc main_arg9)))

theorem W7_v48 : W7 m ρ c (Proc.devRef .tc main_v48) = H2 m c := by
  refine (W7_arr m ρ c 2).trans ((region2_value (V6 m ρ) c).trans ?_)
  show Cert.MatProd.prod (W6 m ρ c (Proc.devRef .tc main_v47)) (W6 m ρ c (Proc.devRef .tc main_arg6)) = _
  rw [W6_v47, keep6 m ρ c main_arg6 (by decide) (by decide) (by decide), W3_arg m ρ c main_arg6 (by decide)]

theorem W8_v61 : W8 m ρ c (Proc.devRef .tc main_v61) = A2 m c := by
  show after hostOps3 (W7 m ρ c) _ = _
  rw [h3_agg, keep7 m ρ c main_v3 (by decide) (by decide) (by decide) (by decide), keep7 m ρ c main_v6 (by decide) (by decide) (by decide) (by decide),
    keep7 m ρ c main_v29 (by decide) (by decide) (by decide) (by decide), W3_src, W3_dst, W3_nrm, W7_v48]

theorem W8_v62 : W8 m ρ c (Proc.devRef .tc main_v62) = rowOf (m ((c : Thread nD τ).loc main_arg7)) := by
  show after hostOps3 (W7 m ρ c) _ = _
  rw [h3_main_v62, keep7 m ρ c main_arg7 (by decide) (by decide) (by decide) (by decide), W3_arg m ρ c main_arg7 (by decide)]
  exact shapeCast_row _ _
theorem W8_v63 : W8 m ρ c (Proc.devRef .tc main_v63) = rowOf (m ((c : Thread nD τ).loc main_arg8)) := by
  show after hostOps3 (W7 m ρ c) _ = _
  rw [h3_main_v63, keep7 m ρ c main_arg8 (by decide) (by decide) (by decide) (by decide), W3_arg m ρ c main_arg8 (by decide)]
  exact shapeCast_row _ _
theorem W8_v64 : W8 m ρ c (Proc.devRef .tc main_v64) = rowOf (m ((c : Thread nD τ).loc main_arg9)) := by
  show after hostOps3 (W7 m ρ c) _ = _
  rw [h3_main_v64, keep7 m ρ c main_arg9 (by decide) (by decide) (by decide) (by decide), W3_arg m ρ c main_arg9 (by decide)]
  exact shapeCast_row _ _

theorem W9_v65 : W9 m ρ c (Proc.devRef .tc main_v65) = Y2 m c := by
  refine (W9_arr m ρ c 4).trans ((region3_value (V8 m ρ) c).trans ?_)
  show lnRelu (W8 m ρ c (Proc.devRef .tc main_v61)) (W8 m ρ c (Proc.devRef .tc main_v62)) (W8 m ρ c (Proc.devRef .tc main_v63)) (W8 m ρ c (Proc.devRef .tc main_v64)) = _
  rw [W8_v61, W8_v62, W8_v63, W8_v64]

/-! ## Layer 3 -/

abbrev H3 : FArr S100000x40 := Cert.MatProd.prod (Y2 m c) (m ((c : Thread nD τ).loc main_arg10))
abbrev A3 : FArr S100000x40 := agg40 (SRC m c) (DST m c) (NRM m c) (H3 m c)

theorem W10_v66 : W10 m ρ c (Proc.devRef .tc main_v66) = H3 m c := by
  refine (W10_arr m ρ c 2).trans ((region4_value (V9 m ρ) c).trans ?_)
  show Cert.MatProd.prod (W9 m ρ c (Proc.devRef .tc main_v65)) (W9 m ρ c (Proc.devRef .tc main_arg10)) = _
  rw [W9_v65, keep9 m ρ c main_arg10 (by decide) (by decide) (by decide) (by decide) (by decide) (by decide), W3_arg m ρ c main_arg10 (by decide)]

theorem W11_v79 : W11 m ρ c (Proc.devRef .tc main_v79) = A3 m c := by
  show after hostOps5 (W10 m ρ c) _ = _
  rw [h5_agg, keep10 m ρ c main_v3 (by decide) (by decide) (by decide) (by decide) (by decide) (by decide) (by decide),
    keep10 m ρ c main_v6 (by decide) (by decide) (by decide) (by decide) (by decide) (by decide) (by decide),
    keep10 m ρ c main_v29 (by decide) (by decide) (by decide) (by decide) (by decide) (by decide) (by decide), W3_src, W3_dst, W3_nrm, W10_v66]

theorem W11_v80 : W11 m ρ c (Proc.devRef .tc main_v80) = rowOf (m ((c : Thread nD τ).loc main_arg11)) := by
  show after hostOps5 (W10 m ρ c) _ = _
  rw [h5_main_v80, keep10 m ρ c main_arg11 (by decide) (by decide) (by decide) (by decide) (by decide) (by decide) (by decide), W3_arg m ρ c main_arg11 (by decide)]
  exact shapeCast_row _ _

/-- THE RESULT ARRAY at the last boundary is the network of the twelve launched arguments. -/
theorem W12_v81 : W12 m ρ c (Proc.devRef .tc main_v81)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (W12_arr m ρ c 2).trans ((region5_value (V11 m ρ) c).trans ?_)
  show logSoftmax (W11 m ρ c (Proc.devRef .tc main_v79)) (W11 m ρ c (Proc.devRef .tc main_v80)) = _
  rw [W11_v79, W11_v80]
  rfl

end Cert.KernelIdeal.Val

end
-- ==== Proof.RefChain.lean ====
/-
  The reference's dense layers as it spells them with host operations on whole arrays:
  `lnHost t b g be` — the bias row added, every row centred by its mean, scaled by the reciprocal square root of
  its mean square deviation plus `1e-5`, times the gain row, plus the shift row, clamped below at zero;
  `lsHost t b` — the bias row added, the row maximum subtracted, then the logarithm of the row's sum of
  exponentials subtracted. Stated once so that the run and the entry-by-entry reading can both cite them.
-/
import proofs.«171338_j16415365005351_1_alg».proof.Proof.Gen.ReferenceIdeal
import proofs.«171338_j16415365005351_1_alg».proof.Proof.HostChain

noncomputable section

namespace Cert.Gcn.Ref

open Idealize.ShloMosaic Cert.ReferenceIdeal Cert.ReferenceIdeal.Facts₀ Cert.Gcn

/-- A vector repeated down the rows of a 128-wide matrix, and of a 40-wide one. -/
def bcRow128 (b : FArr S128) : FArr S100000x128 :=
  broadcastInDim S100000x128 ![0, 1] bcast_S1x128_S100000x128_0_1 (broadcastInDim S1x128 ![1] bcast_S128_S1x128_1 b)
def bcRow40 (b : FArr S40) : FArr S100000x40 :=
  broadcastInDim S100000x40 ![0, 1] bcast_S1x40_S100000x40_0_1 (broadcastInDim S1x40 ![1] bcast_S40_S1x40_1 b)

/-- The column of row means of a 128-wide matrix: row sums from zero, divided by `128.0`. -/
def meanCol (x : FArr S100000x128) : FArr S100000x1 :=
  Host.divf (F := Ideal) (broadcastInDim S100000x1 ![0] bcast_S100000_S100000x1_0 (Host.reduceAdd (F := Ideal) x (constant (F := Ideal) S_ .f32 0x00000000#32) reducesTo_S100000x128_S100000_d1 h_S_)) (broadcastInDim S100000x1 ![] bcast_S_S100000x1 (constant (F := Ideal) S_ .f32 0x43000000#32))

/-- Every row minus its mean. -/
def centred (x : FArr S100000x128) : FArr S100000x128 :=
  subf x (broadcastInDim S100000x128 ![0, 1] bcast_S100000x1_S100000x128_0_1 (meanCol x))

/-- LayerNorm then ReLU of `t` plus the bias row. -/
def lnHost (t : FArr S100000x128) (b g be : FArr S128) : FArr S100000x128 :=
  maximumf (addf (mulf (mulf (centred (addf t (bcRow128 b))) (broadcastInDim S100000x128 ![0, 1] bcast_S100000x1_S100000x128_0_1 (Host.rsqrt (F := Ideal) (addf (meanCol (mulf (centred (addf t (bcRow128 b))) (centred (addf t (bcRow128 b))))) (broadcastInDim S100000x1 ![] bcast_S_S100000x1 (constant (F := Ideal) S_ .f32 0x3727C5AC#32)))))) (bcRow128 g)) (bcRow128 be)) (broadcastInDim S100000x128 ![] bcast_S_S100000x128 (constant (F := Ideal) S_ .f32 0x00000000#32))

/-- The matrix of row maxima of a 40-wide matrix (the fold from `-inf`, and once more against `-inf`). -/
def maxMat (x : FArr S100000x40) : FArr S100000x40 :=
  broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce FloatOps.maximumf x (constant (F := Ideal) S_ .f32 0xFF800000#32) reducesTo_S100000x40_S100000_d1 h_S_)))

/-- The log-softmax of the rows of `t` plus the bias row. -/
def lsHost (t : FArr S100000x40) (b : FArr S40) : FArr S100000x40 :=
  subf (subf (addf t (bcRow40 b)) (maxMat (addf t (bcRow40 b)))) (broadcastInDim S100000x40 ![0, 1] bcast_S100000x1_S100000x40_0_1 (Host.log (F := Ideal) (broadcastInDim S100000x1 ![0] bcast_S100000_S100000x1_0 (Host.reduceAdd (F := Ideal) (Host.exp (F := Ideal) (subf (addf t (bcRow40 b)) (maxMat (addf t (bcRow40 b))))) (constant (F := Ideal) S_ .f32 0x00000000#32) reducesTo_S100000x40_S100000_d1 h_S_))))

/-- The reference's result as host operations of the arguments: `out` with every dense layer in the host's spelling. -/
def outHost (x0 : FArr S100000x128) (x1 : IArr S2x1600000) (x2 : FArr S128x128) (x3 x4 x5 : FArr S128) (x6 : FArr S128x128)
    (x7 x8 x9 : FArr S128) (x10 : FArr S128x40) (x11 : FArr S40) : FArr S100000x40 :=
  lsHost
    (agg40 (srcOf x1) (dstOf x1) (normOf (srcOf x1) (dstOf x1))
      (Host.dotGeneral (F := Ideal) dot_S100000x128_S128x40_S100000x40_1_0_0_1_n_n none
        (lnHost
          (agg128 (srcOf x1) (dstOf x1) (normOf (srcOf x1) (dstOf x1))
            (Host.dotGeneral (F := Ideal) dot_S100000x128_S128x128_S100000x128_1_0_0_1_n_n none
              (lnHost (agg128 (srcOf x1) (dstOf x1) (normOf (srcOf x1) (dstOf x1)) (Host.dotGeneral (F := Ideal) dot_S100000x128_S128x128_S100000x128_1_0_0_1_n_n none x0 x2))
                x3 x4 x5)
              x6))
          x7 x8 x9)
        x10))
    x11

end Cert.Gcn.Ref

end
-- ==== Proof.RefRunL.lean ====
/-
  The reference's run, read in stages. Its @main is a straight line of 179 host operations; the contents after the
  line is the fold of the operations over the launch contents. The line is cut into eight consecutive pieces — the
  edges' sources and targets; the edges' weights; and for each of the three layers the product with its aggregation,
  then the dense row-wise layer — and each piece is read for ANY contents it starts from: its result buffer holds
  the piece's function (the host operations themselves, never opened) of the buffers it reads, and the buffers that
  later pieces read are left as they were. Chained, the result buffer ends at `outHost` of the twelve arguments.
-/
import proofs.«171338_j16415365005351_1_alg».proof.Proof.RefOps
import proofs.«171338_j16415365005351_1_alg».proof.Proof.RefChain
import proofs.«171338_j16415365005351_1_alg».proof.Proof.LibAfter
import proofs.«171338_j16415365005351_1_alg».proof.Proof.LibTypedRef
import Idealize.ShloMosaic.Lib.StableHlo.Run

set_option maxRecDepth 16384

noncomputable section

namespace Cert.Gcn.Ref

open Cert.ReferenceIdeal Cert.ReferenceIdeal.Gen Cert.ReferenceIdeal.Facts₀ Cert.Gcn
open Idealize.ShloMosaic Idealize.ShloMosaic.TcCoe Idealize.SL.Sem Idealize.ShloMosaic.StableHlo

variable (V : Valuation τ sig (Elt Ideal))

/-! ## The pieces of the line -/

/-- The operations that compute the edges' sources and targets. -/
abbrev sA : List (HloOp τ sig (Elt Ideal)) := RunP.ops.take 7
/-- The operations that compute the edges' weights. -/
abbrev sB : List (HloOp τ sig (Elt Ideal)) := (RunP.ops.drop 7).take 33
/-- The operations that compute the first product and its aggregation. -/
abbrev s1a : List (HloOp τ sig (Elt Ideal)) := (RunP.ops.drop 40).take 17
/-- The operations that compute the first normalising layer. -/
abbrev s1b : List (HloOp τ sig (Elt Ideal)) := (RunP.ops.drop 57).take 35
/-- The operations that compute the second product and its aggregation. -/
abbrev s2a : List (HloOp τ sig (Elt Ideal)) := (RunP.ops.drop 92).take 17
/-- The operations that compute the second normalising layer. -/
abbrev s2b : List (HloOp τ sig (Elt Ideal)) := (RunP.ops.drop 109).take 35
/-- The operations that compute the third product and its aggregation. -/
abbrev s3a : List (HloOp τ sig (Elt Ideal)) := (RunP.ops.drop 144).take 17
/-- The operations that compute the bias and the log-softmax. -/
abbrev s3b : List (HloOp τ sig (Elt Ideal)) := RunP.ops.drop 161

/-- The line is its pieces in order, so the fold over the line is the folds over the pieces, composed. -/
theorem after_ops : after (RunP.ops (F := Ideal)) V
    = after s3b (after s3a (after s2b (after s2a (after s1b (after s1a (after sB (after sA V))))))) := by
  have e : (RunP.ops (F := Ideal)) = sA ++ (sB ++ (s1a ++ (s1b ++ (s2a ++ (s2b ++ (s3a ++ s3b)))))) := by
    simp only [sA, sB, s1a, s1b, s2a, s2b, s3a, s3b, RunP.ops, List.drop_succ_cons, List.drop_zero, List.take_succ_cons, List.take_zero, List.cons_append, List.nil_append]
  rw [e]
  simp only [Cert.After.after_append]

/-! ## Contents carried to the declared type of a literal buffer of an inlined call, or back, are unchanged -/

theorem toBuf_v14 (p : main_v14.ty = ⟨S100000, .f32⟩) (q : main_v14.space ≠ .host) (r : main_v14.isScoped = false)
    (v : (⟨S100000, .f32⟩ : BufTy).Contents (Elt Ideal)) :
    (TRef.of (T := ⟨S100000, .f32⟩) main_v14 p q r).toBuf (Val := Elt Ideal) v = v := rfl
theorem ofBuf_v12 (p : main_v12.ty = ⟨S100000, .i1⟩) (q : main_v12.space ≠ .host) (r : main_v12.isScoped = false)
    (v : (⟨S100000, .i1⟩ : BufTy).Contents (Elt Ideal)) :
    (TRef.of (T := ⟨S100000, .i1⟩) main_v12 p q r).ofBuf (Val := Elt Ideal) v = v := rfl
theorem ofBuf_v13 (p : main_v13.ty = ⟨S100000, .f32⟩) (q : main_v13.space ≠ .host) (r : main_v13.isScoped = false)
    (v : (⟨S100000, .f32⟩ : BufTy).Contents (Elt Ideal)) :
    (TRef.of (T := ⟨S100000, .f32⟩) main_v13 p q r).ofBuf (Val := Elt Ideal) v = v := rfl
theorem ofBuf_cst_2 (p : main_cst_2.ty = ⟨S_, .f32⟩) (q : main_cst_2.space ≠ .host) (r : main_cst_2.isScoped = false)
    (v : (⟨S_, .f32⟩ : BufTy).Contents (Elt Ideal)) :
    (TRef.of (T := ⟨S_, .f32⟩) main_cst_2 p q r).ofBuf (Val := Elt Ideal) v = v := rfl
theorem toBuf_v71 (p : main_v71.ty = ⟨S100000x128, .f32⟩) (q : main_v71.space ≠ .host) (r : main_v71.isScoped = false)
    (v : (⟨S100000x128, .f32⟩ : BufTy).Contents (Elt Ideal)) :
    (TRef.of (T := ⟨S100000x128, .f32⟩) main_v71 p q r).toBuf (Val := Elt Ideal) v = v := rfl
theorem ofBuf_v70 (p : main_v70.ty = ⟨S100000x128, .f32⟩) (q : main_v70.space ≠ .host) (r : main_v70.isScoped = false)
    (v : (⟨S100000x128, .f32⟩ : BufTy).Contents (Elt Ideal)) :
    (TRef.of (T := ⟨S100000x128, .f32⟩) main_v70 p q r).ofBuf (Val := Elt Ideal) v = v := rfl
theorem toBuf_v113 (p : main_v113.ty = ⟨S100000x128, .f32⟩) (q : main_v113.space ≠ .host) (r : main_v113.isScoped = false)
    (v : (⟨S100000x128, .f32⟩ : BufTy).Contents (Elt Ideal)) :
    (TRef.of (T := ⟨S100000x128, .f32⟩) main_v113 p q r).toBuf (Val := Elt Ideal) v = v := rfl
theorem ofBuf_v112 (p : main_v112.ty = ⟨S100000x128, .f32⟩) (q : main_v112.space ≠ .host) (r : main_v112.isScoped = false)
    (v : (⟨S100000x128, .f32⟩ : BufTy).Contents (Elt Ideal)) :
    (TRef.of (T := ⟨S100000x128, .f32⟩) main_v112 p q r).ofBuf (Val := Elt Ideal) v = v := rfl
theorem toBuf_v131 (p : main_v131.ty = ⟨S100000x40, .f32⟩) (q : main_v131.space ≠ .host) (r : main_v131.isScoped = false)
    (v : (⟨S100000x40, .f32⟩ : BufTy).Contents (Elt Ideal)) :
    (TRef.of (T := ⟨S100000x40, .f32⟩) main_v131 p q r).toBuf (Val := Elt Ideal) v = v := rfl
theorem ofBuf_v130 (p : main_v130.ty = ⟨S100000x40, .f32⟩) (q : main_v130.space ≠ .host) (r : main_v130.isScoped = false)
    (v : (⟨S100000x40, .f32⟩ : BufTy).Contents (Elt Ideal)) :
    (TRef.of (T := ⟨S100000x40, .f32⟩) main_v130 p q r).ofBuf (Val := Elt Ideal) v = v := rfl

/-! ## The edges -/

set_option maxHeartbeats 4000000 in
theorem sA_src : after sA V (Proc.devRef .tc main_v3) = srcOf (V (Proc.devRef .tc main_arg1)) := by
  simp only [sA, RunP.ops, List.drop_succ_cons, List.drop_zero, List.take_succ_cons, List.take_zero]
  after_results_simp
  rfl

set_option maxHeartbeats 4000000 in
theorem sA_dst : after sA V (Proc.devRef .tc main_v6) = dstOf (V (Proc.devRef .tc main_arg1)) := by
  simp only [sA, RunP.ops, List.drop_succ_cons, List.drop_zero, List.take_succ_cons, List.take_zero]
  after_results_simp
  rfl

set_option maxHeartbeats 4000000 in
/-- The stage leaves these buffers as they were. -/
theorem sA_keep (r : Ref sig .tc) (hr : r ∈ [main_arg0, main_arg1, main_arg2, main_arg3, main_arg4, main_arg5, main_arg6, main_arg7, main_arg8, main_arg9, main_arg10, main_arg11]) :
    after sA V (Proc.devRef .tc r) = V (Proc.devRef .tc r) := by
  simp only [List.mem_cons, List.mem_nil_iff, or_false] at hr
  rcases hr with rfl | rfl | rfl | rfl | rfl | rfl | rfl | rfl | rfl | rfl | rfl | rfl <;>
  · simp only [sA, RunP.ops, List.drop_succ_cons, List.drop_zero, List.take_succ_cons, List.take_zero]
    after_results_simp

set_option maxHeartbeats 4000000 in
theorem sB_norm : after sB V (Proc.devRef .tc main_v29) = normOf (V (Proc.devRef .tc main_v3)) (V (Proc.devRef .tc main_v6)) := by
  simp only [sB, RunP.ops, List.drop_succ_cons, List.drop_zero, List.take_succ_cons, List.take_zero]
  after_results_simp
  simp only [Cert.TypedRef.ofBuf_toBuf, toBuf_v14, ofBuf_v12, ofBuf_v13, ofBuf_cst_2]
  rfl

set_option maxHeartbeats 4000000 in
/-- The stage leaves these buffers as they were. -/
theorem sB_keep (r : Ref sig .tc) (hr : r ∈ [main_v3, main_v6, main_arg0, main_arg1, main_arg2, main_arg3, main_arg4, main_arg5, main_arg6, main_arg7, main_arg8, main_arg9, main_arg10, main_arg11]) :
    after sB V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl <;>
  · simp only [sB, RunP.ops, List.drop_succ_cons, List.drop_zero, List.take_succ_cons, List.take_zero]
    after_results_simp

/-! ## Piece s1a -/

set_option maxHeartbeats 4000000 in
theorem s1a_agg : after s1a V (Proc.devRef .tc main_v43)
    = agg128 (V (Proc.devRef .tc main_v3)) (V (Proc.devRef .tc main_v6)) (V (Proc.devRef .tc main_v29))
        (Host.dotGeneral (F := Ideal) (φ₁ := .f32) (φ₂ := .f32) dot_S100000x128_S128x128_S100000x128_1_0_0_1_n_n none (V (Proc.devRef .tc main_arg0)) (V (Proc.devRef .tc main_arg2))) := by
  simp only [s1a, RunP.ops, List.drop_succ_cons, List.drop_zero, List.take_succ_cons, List.take_zero]
  after_results_simp
  rfl

set_option maxHeartbeats 4000000 in
/-- The stage leaves these buffers as they were. -/
theorem s1a_keep (r : Ref sig .tc) (hr : r ∈ [main_v3, main_v6, main_v29, main_arg0, main_arg1, main_arg2, main_arg3, main_arg4, main_arg5, main_arg6, main_arg7, main_arg8, main_arg9, main_arg10, main_arg11]) :
    after s1a V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl <;>
  · simp only [s1a, RunP.ops, List.drop_succ_cons, List.drop_zero, List.take_succ_cons, List.take_zero]
    after_results_simp

/-! ## Piece s1b -/

set_option maxHeartbeats 4000000 in
theorem s1b_ln : after s1b V (Proc.devRef .tc main_v71)
    = lnHost (V (Proc.devRef .tc main_v43)) (V (Proc.devRef .tc main_arg3)) (V (Proc.devRef .tc main_arg4)) (V (Proc.devRef .tc main_arg5)) := by
  simp only [s1b, RunP.ops, List.drop_succ_cons, List.drop_zero, List.take_succ_cons, List.take_zero]
  after_results_simp
  simp only [Cert.TypedRef.ofBuf_toBuf, toBuf_v71, ofBuf_v70]
  rfl

set_option maxHeartbeats 4000000 in
/-- The stage leaves these buffers as they were. -/
theorem s1b_keep (r : Ref sig .tc) (hr : r ∈ [main_v3, main_v6, main_v29, main_arg0, main_arg1, main_arg2, main_arg3, main_arg4, main_arg5, main_arg6, main_arg7, main_arg8, main_arg9, main_arg10, main_arg11]) :
    after s1b V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl <;>
  · simp only [s1b, RunP.ops, List.drop_succ_cons, List.drop_zero, List.take_succ_cons, List.take_zero]
    after_results_simp

/-! ## Piece s2a -/

set_option maxHeartbeats 4000000 in
theorem s2a_agg : after s2a V (Proc.devRef .tc main_v85)
    = agg128 (V (Proc.devRef .tc main_v3)) (V (Proc.devRef .tc main_v6)) (V (Proc.devRef .tc main_v29))
        (Host.dotGeneral (F := Ideal) (φ₁ := .f32) (φ₂ := .f32) dot_S100000x128_S128x128_S100000x128_1_0_0_1_n_n none (V (Proc.devRef .tc main_v71)) (V (Proc.devRef .tc main_arg6))) := by
  simp only [s2a, RunP.ops, List.drop_succ_cons, List.drop_zero, List.take_succ_cons, List.take_zero]
  after_results_simp
  rfl

set_option maxHeartbeats 4000000 in
/-- The stage leaves these buffers as they were. -/
theorem s2a_keep (r : Ref sig .tc) (hr : r ∈ [main_v3, main_v6, main_v29, main_arg0, main_arg1, main_arg2, main_arg3, main_arg4, main_arg5, main_arg6, main_arg7, main_arg8, main_arg9, main_arg10, main_arg11]) :
    after s2a V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl <;>
  · simp only [s2a, RunP.ops, List.drop_succ_cons, List.drop_zero, List.take_succ_cons, List.take_zero]
    after_results_simp

/-! ## Piece s2b -/

set_option maxHeartbeats 4000000 in
theorem s2b_ln : after s2b V (Proc.devRef .tc main_v113)
    = lnHost (V (Proc.devRef .tc main_v85)) (V (Proc.devRef .tc main_arg7)) (V (Proc.devRef .tc main_arg8)) (V (Proc.devRef .tc main_arg9)) := by
  simp only [s2b, RunP.ops, List.drop_succ_cons, List.drop_zero, List.take_succ_cons, List.take_zero]
  after_results_simp
  simp only [Cert.TypedRef.ofBuf_toBuf, toBuf_v113, ofBuf_v112]
  rfl

set_option maxHeartbeats 4000000 in
/-- The stage leaves these buffers as they were. -/
theorem s2b_keep (r : Ref sig .tc) (hr : r ∈ [main_v3, main_v6, main_v29, main_arg0, main_arg1, main_arg2, main_arg3, main_arg4, main_arg5, main_arg6, main_arg7, main_arg8, main_arg9, main_arg10, main_arg11]) :
    after s2b V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl <;>
  · simp only [s2b, RunP.ops, List.drop_succ_cons, List.drop_zero, List.take_succ_cons, List.take_zero]
    after_results_simp

/-! ## Piece s3a -/

set_option maxHeartbeats 4000000 in
theorem s3a_agg : after s3a V (Proc.devRef .tc main_v127)
    = agg40 (V (Proc.devRef .tc main_v3)) (V (Proc.devRef .tc main_v6)) (V (Proc.devRef .tc main_v29))
        (Host.dotGeneral (F := Ideal) (φ₁ := .f32) (φ₂ := .f32) dot_S100000x128_S128x40_S100000x40_1_0_0_1_n_n none (V (Proc.devRef .tc main_v113)) (V (Proc.devRef .tc main_arg10))) := by
  simp only [s3a, RunP.ops, List.drop_succ_cons, List.drop_zero, List.take_succ_cons, List.take_zero]
  after_results_simp
  rfl

set_option maxHeartbeats 4000000 in
/-- The stage leaves these buffers as they were. -/
theorem s3a_keep (r : Ref sig .tc) (hr : r ∈ [main_v3, main_v6, main_v29, main_arg0, main_arg1, main_arg2, main_arg3, main_arg4, main_arg5, main_arg6, main_arg7, main_arg8, main_arg9, main_arg10, main_arg11]) :
    after s3a V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl <;>
  · simp only [s3a, RunP.ops, List.drop_succ_cons, List.drop_zero, List.take_succ_cons, List.take_zero]
    after_results_simp

/-! ## Piece s3b -/

set_option maxHeartbeats 4000000 in
theorem s3b_ls : after s3b V (Proc.devRef .tc main_v131) = lsHost (V (Proc.devRef .tc main_v127)) (V (Proc.devRef .tc main_arg11)) := by
  simp only [s3b, RunP.ops, List.drop_succ_cons, List.drop_zero, List.take_succ_cons, List.take_zero]
  after_results_simp
  simp only [Cert.TypedRef.ofBuf_toBuf, toBuf_v131, ofBuf_v130]
  rfl

set_option maxHeartbeats 4000000 in
/-- The stage leaves these buffers as they were. -/
theorem s3b_keep (r : Ref sig .tc) (hr : r ∈ [main_v3, main_v6, main_v29, main_arg0, main_arg1, main_arg2, main_arg3, main_arg4, main_arg5, main_arg6, main_arg7, main_arg8, main_arg9, main_arg10, main_arg11]) :
    after s3b V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl <;>
  · simp only [s3b, RunP.ops, List.drop_succ_cons, List.drop_zero, List.take_succ_cons, List.take_zero]
    after_results_simp

end Cert.Gcn.Ref

end
-- ==== Proof.RefRun.lean ====
/-
  The reference's run: every weakly fair execution of its @main terminates with the result buffer at `outHost` of the
  twelve argument arrays as launched — the eight pieces of its line of host operations chained — and the arguments
  unchanged.
-/
import proofs.«171338_j16415365005351_1_alg».proof.Proof.RefRunL

set_option maxRecDepth 16384

noncomputable section

namespace Cert.Gcn.Ref

open Cert.ReferenceIdeal Cert.ReferenceIdeal.Gen Cert.ReferenceIdeal.Facts₀ Cert.Gcn
open Idealize.ShloMosaic Idealize.ShloMosaic.TcCoe Idealize.SL.Sem Idealize.ShloMosaic.StableHlo

variable (V : Valuation τ sig (Elt Ideal))

/-- Membership in a literal list of buffers, by listing. -/
macro "mem_list" : tactic => `(tactic| simp only [List.mem_cons, List.mem_nil_iff, or_false, true_or, or_true])

/-- The contents after the edges' two pieces. -/
def V2 : Valuation τ sig (Elt Ideal) := after sB (after sA V)
theorem V2_def : V2 V = after sB (after sA V) := rfl

theorem V2_src : V2 V (Proc.devRef .tc main_v3) = srcOf (V (Proc.devRef .tc main_arg1)) := by
  rw [V2_def, sB_keep _ main_v3 (by mem_list)]; exact sA_src V
theorem V2_dst : V2 V (Proc.devRef .tc main_v6) = dstOf (V (Proc.devRef .tc main_arg1)) := by
  rw [V2_def, sB_keep _ main_v6 (by mem_list)]; exact sA_dst V
theorem V2_nrm : V2 V (Proc.devRef .tc main_v29) = normOf (srcOf (V (Proc.devRef .tc main_arg1))) (dstOf (V (Proc.devRef .tc main_arg1))) := by
  rw [V2_def, sB_norm, sA_src, sA_dst]
theorem V2_arg (r : Ref sig .tc) (hr : r ∈ [main_arg0, main_arg1, main_arg2, main_arg3, main_arg4, main_arg5, main_arg6, main_arg7, main_arg8, main_arg9, main_arg10, main_arg11]) : V2 V (Proc.devRef .tc r) = V (Proc.devRef .tc r) := by
  rw [V2_def, sB_keep _ r (List.mem_cons_of_mem _ (List.mem_cons_of_mem _ hr)), sA_keep V r hr]

/-- The contents after the first layer's two pieces, and after the second's. -/
def V4 : Valuation τ sig (Elt Ideal) := after s1b (after s1a (V2 V))
theorem V4_def : V4 V = after s1b (after s1a (V2 V)) := rfl
def V6 : Valuation τ sig (Elt Ideal) := after s2b (after s2a (V4 V))
theorem V6_def : V6 V = after s2b (after s2a (V4 V)) := rfl

/-- The edge data and the arguments are not written by the layers. -/
theorem V4_keep (r : Ref sig .tc) (hr : r ∈ [main_v3, main_v6, main_v29, main_arg0, main_arg1, main_arg2, main_arg3, main_arg4, main_arg5, main_arg6, main_arg7, main_arg8, main_arg9, main_arg10, main_arg11]) : V4 V (Proc.devRef .tc r) = V2 V (Proc.devRef .tc r) := by
  rw [V4_def, s1b_keep _ r hr, s1a_keep _ r hr]
theorem V6_keep (r : Ref sig .tc) (hr : r ∈ [main_v3, main_v6, main_v29, main_arg0, main_arg1, main_arg2, main_arg3, main_arg4, main_arg5, main_arg6, main_arg7, main_arg8, main_arg9, main_arg10, main_arg11]) : V6 V (Proc.devRef .tc r) = V2 V (Proc.devRef .tc r) := by
  rw [V6_def, s2b_keep _ r hr, s2a_keep _ r hr, V4_keep V r hr]

/-- The first layer's output. -/
theorem V4_v71 : V4 V (Proc.devRef .tc main_v71) = lnHost (agg128 (srcOf (V (Proc.devRef .tc main_arg1))) (dstOf (V (Proc.devRef .tc main_arg1))) (normOf (srcOf (V (Proc.devRef .tc main_arg1))) (dstOf (V (Proc.devRef .tc main_arg1)))) (Host.dotGeneral (F := Ideal) (φ₁ := .f32) (φ₂ := .f32) dot_S100000x128_S128x128_S100000x128_1_0_0_1_n_n none (V (Proc.devRef .tc main_arg0)) (V (Proc.devRef .tc main_arg2)))) (V (Proc.devRef .tc main_arg3)) (V (Proc.devRef .tc main_arg4)) (V (Proc.devRef .tc main_arg5)) := by
  rw [V4_def, s1b_ln, s1a_agg, s1a_keep _ main_arg3 (by mem_list), s1a_keep _ main_arg4 (by mem_list), s1a_keep _ main_arg5 (by mem_list),
    V2_src, V2_dst, V2_nrm, V2_arg V main_arg0 (by mem_list), V2_arg V main_arg2 (by mem_list), V2_arg V main_arg3 (by mem_list),
    V2_arg V main_arg4 (by mem_list), V2_arg V main_arg5 (by mem_list)]

/-- The second layer's output, over the first's. -/
theorem V6_v113 : V6 V (Proc.devRef .tc main_v113)
    = lnHost (agg128 (srcOf (V (Proc.devRef .tc main_arg1))) (dstOf (V (Proc.devRef .tc main_arg1))) (normOf (srcOf (V (Proc.devRef .tc main_arg1))) (dstOf (V (Proc.devRef .tc main_arg1)))) (Host.dotGeneral (F := Ideal) (φ₁ := .f32) (φ₂ := .f32) dot_S100000x128_S128x128_S100000x128_1_0_0_1_n_n none (V4 V (Proc.devRef .tc main_v71)) (V (Proc.devRef .tc main_arg6)))) (V (Proc.devRef .tc main_arg7)) (V (Proc.devRef .tc main_arg8)) (V (Proc.devRef .tc main_arg9)) := by
  rw [V6_def, s2b_ln, s2a_agg, s2a_keep _ main_arg7 (by mem_list), s2a_keep _ main_arg8 (by mem_list), s2a_keep _ main_arg9 (by mem_list),
    V4_keep V main_v3 (by mem_list), V4_keep V main_v6 (by mem_list), V4_keep V main_v29 (by mem_list), V4_keep V main_arg6 (by mem_list),
    V4_keep V main_arg7 (by mem_list), V4_keep V main_arg8 (by mem_list), V4_keep V main_arg9 (by mem_list),
    V2_src, V2_dst, V2_nrm, V2_arg V main_arg6 (by mem_list), V2_arg V main_arg7 (by mem_list), V2_arg V main_arg8 (by mem_list),
    V2_arg V main_arg9 (by mem_list)]

/-- THE RESULT BUFFER after the whole line. -/
theorem after_v131 : after (RunP.ops (F := Ideal)) V (Proc.devRef .tc main_v131) = outHost (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops, ← V2_def, ← V4_def, ← V6_def]
  rw [s3b_ls, s3a_agg, s3a_keep _ main_arg11 (by mem_list),
    V6_keep V main_v3 (by mem_list), V6_keep V main_v6 (by mem_list), V6_keep V main_v29 (by mem_list),
    V6_keep V main_arg10 (by mem_list), V6_keep V main_arg11 (by mem_list), V6_v113, V4_v71,
    V2_src, V2_dst, V2_nrm, V2_arg V main_arg10 (by mem_list), V2_arg V main_arg11 (by mem_list)]
  rfl

/-- No operation of the line writes an argument. -/
theorem after_arg (r : Ref sig .tc) (hr : r ∈ [main_arg0, main_arg1, main_arg2, main_arg3, main_arg4, main_arg5, main_arg6, main_arg7, main_arg8, main_arg9, main_arg10, main_arg11]) :
    after (RunP.ops (F := Ideal)) V (Proc.devRef .tc r) = V (Proc.devRef .tc r) := by
  have hk : r ∈ [main_v3, main_v6, main_v29, main_arg0, main_arg1, main_arg2, main_arg3, main_arg4, main_arg5, main_arg6, main_arg7, main_arg8, main_arg9, main_arg10, main_arg11] := List.mem_cons_of_mem _ (List.mem_cons_of_mem _ (List.mem_cons_of_mem _ hr))
  rw [after_ops, ← V2_def, ← V4_def, ← V6_def]
  rw [s3b_keep _ r hk, s3a_keep _ r hk, V6_keep V r hk, V2_arg V r hr]

variable (m : (ℓ : Loc nD τ sig) → Buf (Elt Ideal) ℓ) (ρ : Dev nD → PrngReg)

set_option maxHeartbeats 71600000 in
/-- THE RUN of the reference. -/
theorem ref_run : θ_run defs (onTc (τ := τ) (main (F := Ideal))) ⟨m, fun _ => 0, ρ⟩ fun r => ∀ c : Dev nD,
      r.2.mem ((c.tc : Thread nD τ).loc main_v131) = outHost (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
      ⟨(h c main_v131).trans (after_v131 (launchContents m c)),
       (h c main_arg0).trans (after_arg (launchContents m c) main_arg0 (by mem_list)),
       (h c main_arg1).trans (after_arg (launchContents m c) main_arg1 (by mem_list)),
       (h c main_arg2).trans (after_arg (launchContents m c) main_arg2 (by mem_list)),
       (h c main_arg3).trans (after_arg (launchContents m c) main_arg3 (by mem_list)),
       (h c main_arg4).trans (after_arg (launchContents m c) main_arg4 (by mem_list)),
       (h c main_arg5).trans (after_arg (launchContents m c) main_arg5 (by mem_list)),
       (h c main_arg6).trans (after_arg (launchContents m c) main_arg6 (by mem_list)),
       (h c main_arg7).trans (after_arg (launchContents m c) main_arg7 (by mem_list)),
       (h c main_arg8).trans (after_arg (launchContents m c) main_arg8 (by mem_list)),
       (h c main_arg9).trans (after_arg (launchContents m c) main_arg9 (by mem_list)),
       (h c main_arg10).trans (after_arg (launchContents m c) main_arg10 (by mem_list)),
       (h c main_arg11).trans (after_arg (launchContents m c) main_arg11 (by mem_list))⟩)
    (run_seq RunP.scopedRefs_eq RunP.scopedSems_eq defs main (fun _ => RunP.ops) RunP.main_eq (fun _ => RunP.ops_sub) m ρ)

end Cert.Gcn.Ref

end
-- ==== Proof.LibHostRead.lean ====
/-
  The host's whole-array operations read at one entry, general in the extents.

  * a vector laid out as a one-row matrix, a row repeated down the rows, a vector laid out as a one-column matrix, a
    column repeated across the columns, and a rank-zero array repeated everywhere: each reads ONE element of its operand;
  * the sum of a matrix over its column axis from an initial value: at row `p` the initial value plus
    `∑ k, x (p, k)`;
  * the fold of `max` over the column axis from the word `-inf`: at row `p` the fold over `k` of `x (p, k)`; the
    word `-inf` is the least extended real, so a further `max` with it changes nothing.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open scoped BigOperators

namespace Cert.HostRead

open Idealize.ShloMosaic Idealize.ShloMosaic.ValueIdx

variable {α : Type} {m n : Nat}

/-! ## Layouts -/

/-- A vector as a one-row matrix: entry `(u, k)` is the vector's entry `k`. -/
theorem vec_row_apply (b : (⟨1, ![n]⟩ : Shape).Idx → α) (h : (⟨1, ![n]⟩ : Shape).BroadcastsInDim ⟨2, ![1, n]⟩ ![1])
    (u : Fin 1) (k : Fin n) : broadcastInDim ⟨2, ![1, n]⟩ ![1] h b (ix2 u k) = b (ix1 k) :=
  broadcastInDim_apply _ h b (ix2 u k) (ix1 k) (fun a => match a with
    | ⟨0, _⟩ => by
      show k.val = if n = 1 then 0 else k.val
      split
      · have := k.isLt; omega
      · rfl)

/-- A one-row matrix repeated down the rows: entry `(p, k)` is the row's entry `(0, k)`. -/
theorem row_rows_apply (x : (⟨2, ![1, n]⟩ : Shape).Idx → α) (h : (⟨2, ![1, n]⟩ : Shape).BroadcastsInDim ⟨2, ![m, n]⟩ ![0, 1])
    (p : Fin m) (k : Fin n) : broadcastInDim ⟨2, ![m, n]⟩ ![0, 1] h x (ix2 p k) = x (ix2 0 k) :=
  broadcastInDim_apply _ h x (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A vector as a one-column matrix: entry `(p, u)` is the vector's entry `p`. -/
theorem vec_col_apply (x : (⟨1, ![m]⟩ : Shape).Idx → α) (h : (⟨1, ![m]⟩ : Shape).BroadcastsInDim ⟨2, ![m, 1]⟩ ![0])
    (p : Fin m) (u : Fin 1) : broadcastInDim ⟨2, ![m, 1]⟩ ![0] h x (ix2 p u) = x (ix1 p) :=
  broadcastInDim_apply _ h x (ix2 p u) (ix1 p) (fun a => match a with
    | ⟨0, _⟩ => by
      show p.val = if m = 1 then 0 else p.val
      split
      · have := p.isLt; omega
      · rfl)

/-- A one-column matrix repeated across the columns: entry `(p, k)` is the column's entry `(p, 0)`. -/
theorem col_cols_apply (x : (⟨2, ![m, 1]⟩ : Shape).Idx → α) (h : (⟨2, ![m, 1]⟩ : Shape).BroadcastsInDim ⟨2, ![m, n]⟩ ![0, 1])
    (p : Fin m) (k : Fin n) : broadcastInDim ⟨2, ![m, n]⟩ ![0, 1] h x (ix2 p k) = x (ix2 p 0) :=
  broadcastInDim_apply _ h x (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

/-- A rank-zero array repeated everywhere reads its one element. -/
theorem scalar_apply (t : Shape) (x : (⟨0, ![]⟩ : Shape).Idx → α) (h : (⟨0, ![]⟩ : Shape).BroadcastsInDim t ![]) (j : t.Idx) :
    broadcastInDim t ![] h x j = x (fun a => a.elim0) :=
  broadcastInDim_apply _ h x j (fun a => a.elim0) (fun a => a.elim0)

/-- A float word repeated everywhere, over the extended reals. -/
theorem word_apply (t : Shape) (w : BitVec 32) (h : (⟨0, ![]⟩ : Shape).BroadcastsInDim t ![]) (j : t.Idx) :
    broadcastInDim t ![] h (constant (F := Ideal) (⟨0, ![]⟩ : Shape) .f32 w) j = Ideal.ofBits .f32 w :=
  scalar_apply t _ h j

/-! ## Reductions over the column axis -/

/-- The row index `p` with column `k` put back is `(p, k)`. -/
theorem lift_row (h : (⟨2, ![m, n]⟩ : Shape).Reduces [1] (⟨1, ![m]⟩ : Shape)) (p : Fin m) (k : Fin n) :
    h.lift (ix1 p) k = ix2 p k := by
  funext c; apply Fin.ext
  fin_cases c <;> rfl

/-- The host's sum over the columns, at row `p`: the initial value plus the sum of the row. -/
theorem reduceAdd_row_apply (x : (⟨2, ![m, n]⟩ : Shape).Idx → EReal) (init : (⟨0, ![]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x init h' hu (ix1 p) = init (Shape.Idx.first hu) + ∑ k : Fin n, x (ix2 p k) := by
  have hr : (⟨2, ![m, n]⟩ : Shape).Reduces [1] (⟨1, ![m]⟩ : Shape) := ⟨h'.1, Nat.one_pos, h'.2⟩
  simp only [Host.reduceAdd, Ideal.hostReduceAdd_def]
  rw [Ideal.hostReduceAdd_single h' hr]
  refine congrArg (_ + ·) (Finset.sum_congr rfl fun k _ => ?_)
  exact congrArg x (lift_row hr p k)

/-- The host's sum over the columns from the zero word, at row `p`: the sum of the row. -/
theorem reduceAdd_row_zero_apply (x : (⟨2, ![m, n]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x (constant (F := Ideal) (⟨0, ![]⟩ : Shape) .f32 0x00000000#32) h' hu (ix1 p)
      = ∑ k : Fin n, x (ix2 p k) := by
  rw [reduceAdd_row_apply]
  show Ideal.ofBits .f32 0x00000000#32 + _ = _
  rw [Ideal.ofBits_zero_f32, zero_add]

/-- The word `-inf` is the least extended real. -/
theorem max_negInf (y : EReal) : max (Ideal.ofBits .f32 0xFF800000#32) y = y := by
  simp [Ideal.ofBits, Ideal.ieee]

/-- The host's fold of `max` over the columns from the word `-inf`, at row `p`: the fold over the row. -/
theorem reduceMax_row_apply (x : FVec Ideal ⟨2, ![m, n]⟩ .f32)
    (h' : (⟨2, ![m, n]⟩ : Shape).ReducesTo [1] (⟨1, ![m]⟩ : Shape)) (hu : 0 < (⟨0, ![]⟩ : Shape).numel) (p : Fin m) :
    Host.reduce (FloatOps.maximumf (F := Ideal) (φ := .f32)) x (constant (F := Ideal) (⟨0, ![]⟩ : Shape) .f32 0xFF800000#32) h' hu (ix1 p)
      = (Finset.univ : Finset (Fin n)).fold (max : EReal → EReal → EReal) (Ideal.ofBits .f32 0xFF800000#32 : EReal)
          (fun k => (x (ix2 p k) : EReal)) := by
  have hr : (⟨2, ![m, n]⟩ : Shape).Reduces [1] (⟨1, ![m]⟩ : Shape) := ⟨h'.1, Nat.one_pos, h'.2⟩
  refine (Host.reduce_eq_fold_single FloatOps.maximumf x _ h' hr hu (ix1 p)).trans ?_
  have hf : (x ∘ hr.lift (ix1 p)) = fun k : Fin n => x (ix2 p k) := funext fun k => congrArg x (lift_row hr p k)
  exact congrArg (fun f => Finset.fold max (Ideal.ofBits .f32 0xFF800000#32) f (Finset.univ : Finset (Fin n))) hf

/-- One more `max` with the word `-inf` repeated along a vector: at `p` the other operand's entry. -/
theorem maxWord_apply (r : FVec Ideal ⟨1, ![m]⟩ .f32) (h : (⟨0, ![]⟩ : Shape).BroadcastsInDim ⟨1, ![m]⟩ ![]) (p : Fin m) (v : EReal)
    (hr : r (ix1 p) = v) :
    maximumf (broadcastInDim ⟨1, ![m]⟩ ![] h (constant (F := Ideal) (⟨0, ![]⟩ : Shape) .f32 0xFF800000#32)) r (ix1 p) = v := by
  refine (congrArg₂ (max : EReal → EReal → EReal) (word_apply ⟨1, ![m]⟩ _ h (ix1 p)) hr).trans ?_
  exact max_negInf v

/-! ## Pointwise host operations -/

theorem hostLog_apply {s : Shape} (y : FVec Ideal s .f32) (i : s.Idx) : Host.log (F := Ideal) y i = Ideal.log (y i) := rfl
theorem hostExp_apply {s : Shape} (y : FVec Ideal s .f32) (i : s.Idx) : Host.exp (F := Ideal) y i = Ideal.exp (y i) := rfl
theorem hostRsqrt_apply {s : Shape} (y : FVec Ideal s .f32) (i : s.Idx) : Host.rsqrt (F := Ideal) y i = Ideal.rsqrt (y i) := rfl
theorem hostDivf_apply {s : Shape} (x y : FVec Ideal s .f32) (i : s.Idx) : Host.divf (F := Ideal) x y i = Ideal.div (x i) (y i) := rfl
theorem addf_apply {s : Shape} (x y : FVec Ideal s .f32) (i : s.Idx) : addf x y i = x i + y i := rfl
theorem subf_apply {s : Shape} (x y : FVec Ideal s .f32) (i : s.Idx) : subf x y i = x i - y i := rfl
theorem mulf_apply {s : Shape} (x y : FVec Ideal s .f32) (i : s.Idx) : mulf x y i = x i * y i := rfl
theorem maximumf_apply {s : Shape} (x y : FVec Ideal s .f32) (i : s.Idx) : maximumf x y i = max (x i) (y i) := rfl

end Cert.HostRead

end
-- ==== Proof.RefPureLN.lean ====
/-
  The reference's LayerNorm-then-ReLU layer, spelt with host operations on whole arrays, read entry by entry over the
  extended reals: entry `(p, q)` of `lnHost t b g be` is `lnRow` of row `p` of `t` plus the bias, the gain and the
  shift, at `q`. Each host operation is read at `(p, q)`: a pointwise one is the scalar operation of its operands
  there; a repeated row, column or word reads one element; the row sum from the zero word is `∑ k`.
-/
import proofs.«171338_j16415365005351_1_alg».proof.Proof.RefChain
import proofs.«171338_j16415365005351_1_alg».proof.Proof.Spec
import proofs.«171338_j16415365005351_1_alg».proof.Proof.LibHostRead

noncomputable section

open scoped BigOperators

namespace Cert.Gcn.Ref

open Idealize.ShloMosaic Idealize.ShloMosaic.ValueIdx Cert.ReferenceIdeal Cert.ReferenceIdeal.Facts₀ Cert.Gcn Cert.HostRead

/-- A vector repeated down the rows, at `(p, q)`: its entry `q`. -/
theorem bcRow128_apply (b : FArr S128) (p : Fin 100000) (q : Fin 128) : bcRow128 b (ix2 p q) = b (ix1 q) := by
  unfold bcRow128
  exact (row_rows_apply _ bcast_S1x128_S100000x128_0_1 p q).trans (vec_row_apply b bcast_S128_S1x128_1 0 q)

/-- The column of row means at `(p, u)`: the mean of row `p`. -/
theorem meanCol_apply (x : FArr S100000x128) (p : Fin 100000) (u : Fin 1) :
    meanCol x (ix2 p u) = rowMean (fun k : Fin 128 => x (ix2 p k)) := by
  unfold meanCol rowMean c128W
  exact congrArg₂ Ideal.div
    ((vec_col_apply _ bcast_S100000_S100000x1_0 p u).trans (reduceAdd_row_zero_apply x reducesTo_S100000x128_S100000_d1 h_S_ p))
    (word_apply S100000x1 _ bcast_S_S100000x1 (ix2 p u))

/-- A matrix with every row centred, at `(p, q)`: the entry minus the mean of its row. -/
theorem centred_apply (x : FArr S100000x128) (p : Fin 100000) (q : Fin 128) :
    centred x (ix2 p q) = x (ix2 p q) - rowMean (fun k : Fin 128 => x (ix2 p k)) := by
  unfold centred
  exact congrArg (x (ix2 p q) - ·) ((col_cols_apply _ bcast_S100000x1_S100000x128_0_1 p q).trans (meanCol_apply x p 0))

/-- The scale factor of row `p`: the reciprocal square root of the mean of the squares of `c`'s row plus `1e-5`. -/
theorem scale_apply (c : FArr S100000x128) (p : Fin 100000) (q : Fin 128) :
    broadcastInDim S100000x128 ![0, 1] bcast_S100000x1_S100000x128_0_1 (Host.rsqrt (F := Ideal) (addf (meanCol (mulf c c)) (broadcastInDim S100000x1 ![] bcast_S_S100000x1 (constant (F := Ideal) S_ .f32 0x3727C5AC#32)))) (ix2 p q)
      = Ideal.rsqrt (rowMean (fun k : Fin 128 => c (ix2 p k) * c (ix2 p k)) + epsW) := by
  refine (col_cols_apply _ bcast_S100000x1_S100000x128_0_1 p q).trans ?_
  unfold epsW
  exact congrArg Ideal.rsqrt (congrArg₂ (· + ·) (meanCol_apply (mulf c c) p 0) (word_apply S100000x1 _ bcast_S_S100000x1 (ix2 p 0)))

/-- THE LAYER AT `(p, q)`. -/
theorem lnHost_apply (t : FArr S100000x128) (b g be : FArr S128) (p : Fin 100000) (q : Fin 128) :
    lnHost t b g be (ix2 p q)
      = lnRow (fun k : Fin 128 => t (ix2 p k) + b (ix1 k)) (fun k : Fin 128 => g (ix1 k)) (fun k : Fin 128 => be (ix1 k)) q := by
  unfold lnHost
  generalize hy : addf t (bcRow128 b) = y
  have hyk : ∀ k : Fin 128, y (ix2 p k) = t (ix2 p k) + b (ix1 k) := fun k => by
    rw [← hy]; exact congrArg (t (ix2 p k) + ·) (bcRow128_apply b p k)
  have hc : ∀ k : Fin 128, centred y (ix2 p k) = y (ix2 p k) - rowMean (fun k : Fin 128 => y (ix2 p k)) :=
    fun k => centred_apply y p k
  refine (congrArg₂ (max : EReal → EReal → EReal)
    (congrArg₂ (· + ·) (congrArg₂ (· * ·) (congrArg₂ (· * ·) (centred_apply y p q) (scale_apply (centred y) p q))
      (bcRow128_apply g p q)) (bcRow128_apply be p q))
    (word_apply S100000x128 _ bcast_S_S100000x128 (ix2 p q))).trans ?_
  unfold lnRow zeroW
  simp only [hc, hyk]

/-- The reference's layer IS the row-wise function of the whole arrays. -/
theorem lnHost_eq (t : FArr S100000x128) (b g be : FArr S128) :
    lnHost t b g be = Cert.Gcn.lnRelu t (Cert.Gcn.rowOf b) (Cert.Gcn.rowOf g) (Cert.Gcn.rowOf be) := by
  funext i
  obtain ⟨p, q, rfl⟩ : ∃ (p : Fin 100000) (q : Fin 128), i = ix2 p q := ⟨i 0, i 1, eq_ix2 i⟩
  rw [Cert.Gcn.lnRelu_apply]
  exact lnHost_apply t b g be p q

end Cert.Gcn.Ref

end
-- ==== Proof.RefPureLS.lean ====
/-
  The reference's log-softmax layer, spelt with host operations on whole arrays, read entry by entry over the extended
  reals: entry `(p, q)` of `lsHost t b` is `lsRow` of row `p` of `t` plus the bias, at `q`. The row maximum is the
  fold of `max` over the row from the word `-inf`; one more `max` with that word, the least extended real, changes
  nothing.
-/
import proofs.«171338_j16415365005351_1_alg».proof.Proof.RefChain
import proofs.«171338_j16415365005351_1_alg».proof.Proof.Spec
import proofs.«171338_j16415365005351_1_alg».proof.Proof.LibHostRead

noncomputable section

open scoped BigOperators

namespace Cert.Gcn.Ref

open Idealize.ShloMosaic Idealize.ShloMosaic.ValueIdx Cert.ReferenceIdeal Cert.ReferenceIdeal.Facts₀ Cert.Gcn Cert.HostRead

/-- A vector repeated down the rows, at `(p, q)`: its entry `q`. -/
theorem bcRow40_apply (b : FArr S40) (p : Fin 100000) (q : Fin 40) : bcRow40 b (ix2 p q) = b (ix1 q) := by
  unfold bcRow40
  exact (row_rows_apply _ bcast_S1x40_S100000x40_0_1 p q).trans (vec_row_apply b bcast_S40_S1x40_1 0 q)

/-- The matrix of row maxima at `(p, q)`: the maximum of row `p`. -/
theorem maxMat_apply (x : FArr S100000x40) (p : Fin 100000) (q : Fin 40) :
    maxMat x (ix2 p q) = rowMax (fun k : Fin 40 => x (ix2 p k)) := by
  have hr := reduceMax_row_apply x reducesTo_S100000x40_S100000_d1 h_S_ p
  unfold maxMat
  generalize Host.reduce FloatOps.maximumf x (constant (F := Ideal) S_ .f32 0xFF800000#32) reducesTo_S100000x40_S100000_d1 h_S_ = r at hr ⊢
  refine (col_cols_apply _ bcast_S100000x1_S100000x40_0_1 p q).trans ?_
  refine (vec_col_apply _ bcast_S100000_S100000x1_0 p 0).trans ?_
  exact maxWord_apply r bcast_S_S100000 p _ hr

/-- THE LAYER AT `(p, q)`. -/
theorem lsHost_apply (t : FArr S100000x40) (b : FArr S40) (p : Fin 100000) (q : Fin 40) :
    lsHost t b (ix2 p q) = lsRow (fun k : Fin 40 => t (ix2 p k) + b (ix1 k)) q := by
  unfold lsHost
  generalize hy : addf t (bcRow40 b) = y
  have hyk : ∀ k : Fin 40, y (ix2 p k) = t (ix2 p k) + b (ix1 k) := fun k => by
    rw [← hy]; exact congrArg (t (ix2 p k) + ·) (bcRow40_apply b p k)
  have hd : ∀ k : Fin 40, subf y (maxMat y) (ix2 p k) = y (ix2 p k) - rowMax (fun k : Fin 40 => y (ix2 p k)) :=
    fun k => congrArg (y (ix2 p k) - ·) (maxMat_apply y p k)
  have hlog : broadcastInDim S100000x40 ![0, 1] bcast_S100000x1_S100000x40_0_1 (Host.log (F := Ideal) (broadcastInDim S100000x1 ![0] bcast_S100000_S100000x1_0 (Host.reduceAdd (F := Ideal) (Host.exp (F := Ideal) (subf y (maxMat y))) (constant (F := Ideal) S_ .f32 0x00000000#32) reducesTo_S100000x40_S100000_d1 h_S_))) (ix2 p q)
      = Ideal.log (∑ k : Fin 40, Ideal.exp (subf y (maxMat y) (ix2 p k))) := by
    refine (col_cols_apply _ bcast_S100000x1_S100000x40_0_1 p q).trans ?_
    refine (hostLog_apply _ _).trans (congrArg Ideal.log ?_)
    refine (vec_col_apply _ bcast_S100000_S100000x1_0 p 0).trans ?_
    refine (reduceAdd_row_zero_apply (Host.exp (F := Ideal) (subf y (maxMat y))) reducesTo_S100000x40_S100000_d1 h_S_ p).trans ?_
    exact Finset.sum_congr rfl fun k _ => hostExp_apply _ _
  refine (congrArg₂ (· - ·) (hd q) hlog).trans ?_
  unfold lsRow
  simp only [hd, hyk]

/-- The reference's layer IS the row-wise function of the whole arrays. -/
theorem lsHost_eq (t : FArr S100000x40) (b : FArr S40) :
    lsHost t b = Cert.Gcn.logSoftmax t (Cert.Gcn.rowOf b) := by
  funext i
  obtain ⟨p, q, rfl⟩ : ∃ (p : Fin 100000) (q : Fin 40), i = ix2 p q := ⟨i 0, i 1, eq_ix2 i⟩
  rw [Cert.Gcn.logSoftmax_apply]
  exact lsHost_apply t b p q

end Cert.Gcn.Ref

end
-- ==== Proof.RefPure.lean ====
/-
  The reference's result as ONE function of the twelve argument arrays: its three products are `Cert.MatProd.prod`, its
  two LayerNorm-then-ReLU layers are `Cert.Gcn.lnRelu`, its log-softmax is `Cert.Gcn.logSoftmax`, and the irregular
  operations between them are the same host operations both programs apply, kept folded. So `outHost = out`.
-/
import proofs.«171338_j16415365005351_1_alg».proof.Proof.RefChain
import proofs.«171338_j16415365005351_1_alg».proof.Proof.Spec
import proofs.«171338_j16415365005351_1_alg».proof.Proof.LibMatProd
import proofs.«171338_j16415365005351_1_alg».proof.Proof.RefPureLN
import proofs.«171338_j16415365005351_1_alg».proof.Proof.RefPureLS

noncomputable section

namespace Cert.Gcn.Ref

open Idealize.ShloMosaic Idealize.ShloMosaic.ValueIdx Cert.ReferenceIdeal Cert.ReferenceIdeal.Facts₀ Cert.Gcn

/-- The reference's 128-wide product is the plain matrix product. -/
theorem dot128_eq (x : FArr S100000x128) (w : FArr S128x128) :
    Host.dotGeneral (F := Ideal) dot_S100000x128_S128x128_S100000x128_1_0_0_1_n_n none x w = Cert.MatProd.prod x w :=
  Cert.MatProd.dotGeneral_plain_eq (M := 100000) (K := 128) (N := 128) none .single x w

/-- The reference's 40-wide product is the plain matrix product. -/
theorem dot40_eq (x : FArr S100000x128) (w : FArr S128x40) :
    Host.dotGeneral (F := Ideal) dot_S100000x128_S128x40_S100000x40_1_0_0_1_n_n none x w = Cert.MatProd.prod x w :=
  Cert.MatProd.dotGeneral_plain_eq (M := 100000) (K := 128) (N := 40) none .single x w

/-- THE REFERENCE'S RESULT IS THE NETWORK. -/
theorem outHost_eq (x0 : FArr S100000x128) (x1 : IArr S2x1600000) (x2 : FArr S128x128) (x3 x4 x5 : FArr S128) (x6 : FArr S128x128)
    (x7 x8 x9 : FArr S128) (x10 : FArr S128x40) (x11 : FArr S40) :
    outHost x0 x1 x2 x3 x4 x5 x6 x7 x8 x9 x10 x11 = Cert.Gcn.out x0 x1 x2 x3 x4 x5 x6 x7 x8 x9 x10 x11 := by
  unfold outHost Cert.Gcn.out
  rw [dot128_eq, lnHost_eq, dot128_eq, lnHost_eq, dot40_eq, lsHost_eq]

end Cert.Gcn.Ref

end
-- ==== Proof.lean ====
/-
  A three-layer graph convolution network over 100000 nodes and 1.7 million edges (self-loops included): the kernel
  tiles the three products, the two LayerNorm+ReLU layers and the final bias + log-softmax in blocks of 2000 rows
  and leaves the gather / scale / scatter-add aggregations to host operations; the reference does everything with host
  operations on whole arrays. Over the extended reals both end at ONE function of the twelve arguments,
  `Cert.Gcn.out`: a product tiled by rows is the product; a row-wise layer applied tile by tile is the layer;
  a sum over a row, a maximum over a row and a contraction do not depend on how they are scheduled; a change of float
  format is the identity; and the aggregations are the same host operations applied to equal operands, never opened.
  No law used needs finiteness, so the precondition is not opened.
-/
import proofs.«171338_j16415365005351_1_alg».proof.Defs
import proofs.«171338_j16415365005351_1_alg».proof.Proof.Gen.Kernel
import proofs.«171338_j16415365005351_1_alg».proof.Proof.Gen.Kernel.Frame
import proofs.«171338_j16415365005351_1_alg».proof.Proof.Gen.KernelIdeal
import proofs.«171338_j16415365005351_1_alg».proof.Proof.Gen.KernelIdeal.Frame
import proofs.«171338_j16415365005351_1_alg».proof.Proof.Gen.ReferenceIdeal
import proofs.«171338_j16415365005351_1_alg».proof.Proof.Gen.Pre_finite_inputs
import proofs.«171338_j16415365005351_1_alg».proof.Proof.KernelRun
import proofs.«171338_j16415365005351_1_alg».proof.Proof.KernelValue
import proofs.«171338_j16415365005351_1_alg».proof.Proof.RefRun
import proofs.«171338_j16415365005351_1_alg».proof.Proof.RefPure
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference runs and leaves its arguments: its run with the result dropped. -/
theorem frame_ri : Cert.frame_ReferenceIdeal := fun m ρ _ =>
  (θ_run Cert.ReferenceIdeal.defs _ _).mono (fun _ h c => (h c).2) (Cert.Gcn.Ref.ref_run m ρ)

/-- The idealization rewrote nothing. -/
theorem preserves : Cert.preserves_Kernel_KernelIdeal := trivial

/-- Both idealized programs end with the network's function of the arguments in their result array. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Val.W12_v81 m ρ c), (h c).2⟩)
      (Cert.KernelIdeal.Val.run_named (F := Ideal) m ρ)
  · refine (θ_run Cert.ReferenceIdeal.defs _ _).mono (fun _ h c => ⟨(h c).1.trans ?_, (h c).2⟩)
      (Cert.Gcn.Ref.ref_run m' ρ')
    obtain ⟨e0, e1, e2, e3, e4, e5, e6, e7, e8, e9, e10, e11⟩ := hagree c
    rw [Cert.Gcn.Ref.outHost_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
